-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S16x1024x768 .f32) (main_arg1 : FVec F S2304x768 .f32) (main_arg2 : FVec F S768x768 .f32) (main_arg3 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S16384x768 : Shape := ⟨2, ![16384, 768]⟩
abbrev S768x2304 : Shape := ⟨2, ![768, 2304]⟩
abbrev S16384x2304 : Shape := ⟨2, ![16384, 2304]⟩
abbrev S1024x768 : Shape := ⟨2, ![1024, 768]⟩
abbrev S1024x2304 : Shape := ⟨2, ![1024, 2304]⟩
abbrev S16x1024x2304 : Shape := ⟨3, ![16, 1024, 2304]⟩
abbrev S1x1024x128 : Shape := ⟨3, ![1, 1024, 128]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 16
  | .vmem => 19
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S16384x768, .f32⟩
  | .hbm, ⟨5, _⟩ => ⟨S768x2304, .f32⟩
  | .hbm, ⟨6, _⟩ => ⟨S768x2304, .bf16⟩
  | .hbm, ⟨7, _⟩ => ⟨S16384x2304, .bf16⟩
  | .hbm, ⟨8, _⟩ => ⟨S16x1024x2304, .bf16⟩
  | .hbm, ⟨9, _⟩ => ⟨S16x1024x768, .bf16⟩
  | .hbm, ⟨10, _⟩ => ⟨S16384x768, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S16384x768, .f32⟩
  | .hbm, ⟨15, _⟩ => ⟨S16x1024x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1024x2304, .bf16⟩
  | .local _ .vmem, ⟨4, _⟩ => ⟨S1024x2304, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1024x768, .bf16⟩
  | .local _ .vmem, ⟨14, _⟩ => ⟨S1024x768, .bf16⟩
  | .local _ .vmem, ⟨15, _⟩ => ⟨S768x768, .bf16⟩
  | .local _ .vmem, ⟨16, _⟩ => ⟨S1x768, .f32⟩
  | .local _ .vmem, ⟨17, _⟩ => ⟨S1024x768, .f32⟩
  | .local _ .vmem, ⟨18, _⟩ => ⟨S1024x768, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16x1024x768_S16384x768 : S16x1024x768.ShapeCasts S16384x768
  transposes_S2304x768_S768x2304_1_0 : S2304x768.Transposes [1, 0] S768x2304
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S16384x2304_S16x1024x2304 : S16384x2304.ShapeCasts S16x1024x2304
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  packedbf16_S1x1024x128_S1x1024x64_0_0_0 : (Rect.unit (s := S1x1024x128) ![0, 0, 0] S1x1024x64.size inb_S1x1024x128_S1x1024x64_0_0_0).PackedRows (EltTy.packing .bf16)
  inb_S1x1024x128_S1x1024x64_0_0_64 : ∀ a, (![0, 0, 64] : Fin 3 → Nat) a + S1x1024x64.size a ≤ S1x1024x128.size a
  packedbf16_S1x1024x128_S1x1024x64_0_0_64 : (Rect.unit (s := S1x1024x128) ![0, 0, 64] S1x1024x64.size inb_S1x1024x128_S1x1024x64_0_0_64).PackedRows (EltTy.packing .bf16)
  transposes_S768x768_S768x768_1_0 : S768x768.Transposes [1, 0] S768x768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S16384x768_S16x1024x768 : S16384x768.ShapeCasts S16x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S16384x2304.size a
  hwx0_2 : ∀ i : grid0.Coords, EltTy.bits .bf16 = 32 ∨ (Rect.block (s := S16384x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S16x1024x2304.size a
  hwx1_0 : ∀ i : grid1.Coords, EltTy.bits .bf16 = 32 ∨ (Rect.block (s := S16x1024x2304) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S16x1024x2304.size a
  hwx1_1 : ∀ i : grid1.Coords, EltTy.bits .bf16 = 32 ∨ (Rect.block (s := S16x1024x2304) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S16x1024x2304.size a
  hwx1_2 : ∀ i : grid1.Coords, EltTy.bits .bf16 = 32 ∨ (Rect.block (s := S16x1024x2304) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S16x1024x768.size a
  hwx1_3 : ∀ i : grid1.Coords, EltTy.bits .bf16 = 32 ∨ (Rect.block (s := S16x1024x768) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S16384x768.size a
  hwx2_0 : ∀ i : grid2.Coords, EltTy.bits .bf16 = 32 ∨ (Rect.block (s := S16384x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S16384x768.size a
  hwx2_3 : ∀ i : grid2.Coords, EltTy.bits .f32 = 32 ∨ (Rect.block (s := S16384x768) S1024x768.size (cc2_transform_3 i) (hinb2_3 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S16x1024x2304 : Shape := ⟨3, ![16, 1024, 2304]⟩
abbrev S16x1024x3x12x64 : Shape := ⟨5, ![16, 1024, 3, 12, 64]⟩
abbrev S3x16x12x1024x64 : Shape := ⟨5, ![3, 16, 12, 1024, 64]⟩
abbrev S1x16x12x1024x64 : Shape := ⟨5, ![1, 16, 12, 1024, 64]⟩
abbrev S16x12x1024x64 : Shape := ⟨4, ![16, 12, 1024, 64]⟩
abbrev S16x12x1024x1024 : Shape := ⟨4, ![16, 12, 1024, 1024]⟩
abbrev S_ : Shape := ⟨0, ![]⟩
abbrev S16x12x1024 : Shape := ⟨3, ![16, 12, 1024]⟩
abbrev S16x12x1024x1 : Shape := ⟨4, ![16, 12, 1024, 1]⟩
abbrev S16x1024x12x64 : Shape := ⟨4, ![16, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S16x1024x2304, .f32⟩
  | .hbm, ⟨5, _⟩ => ⟨S16x1024x3x12x64, .f32⟩
  | .hbm, ⟨6, _⟩ => ⟨S3x16x12x1024x64, .f32⟩
  | .hbm, ⟨7, _⟩ => ⟨S1x16x12x1024x64, .f32⟩
  | .hbm, ⟨8, _⟩ => ⟨S16x12x1024x64, .f32⟩
  | .hbm, ⟨9, _⟩ => ⟨S1x16x12x1024x64, .f32⟩
  | .hbm, ⟨10, _⟩ => ⟨S16x12x1024x64, .f32⟩
  | .hbm, ⟨11, _⟩ => ⟨S1x16x12x1024x64, .f32⟩
  | .hbm, ⟨12, _⟩ => ⟨S16x12x1024x64, .f32⟩
  | .hbm, ⟨13, _⟩ => ⟨S16x12x1024x1024, .f32⟩
  | .hbm, ⟨14, _⟩ => ⟨S_, .f32⟩
  | .hbm, ⟨15, _⟩ => ⟨S16x12x1024x1024, .f32⟩
  | .hbm, ⟨16, _⟩ => ⟨S16x12x1024x1024, .f32⟩
  | .hbm, ⟨17, _⟩ => ⟨S_, .f32⟩
  | .hbm, ⟨18, _⟩ => ⟨S16x12x1024, .f32⟩
  | .hbm, ⟨19, _⟩ => ⟨S_, .f32⟩
  | .hbm, ⟨20, _⟩ => ⟨S16x12x1024, .f32⟩
  | .hbm, ⟨21, _⟩ => ⟨S16x12x1024, .f32⟩
  | .hbm, ⟨22, _⟩ => ⟨S16x12x1024x1, .f32⟩
  | .hbm, ⟨23, _⟩ => ⟨S16x12x1024x1024, .f32⟩
  | .hbm, ⟨24, _⟩ => ⟨S16x12x1024x1024, .f32⟩
  | .hbm, ⟨25, _⟩ => ⟨S16x12x1024x1024, .f32⟩
  | .hbm, ⟨26, _⟩ => ⟨S_, .f32⟩
  | .hbm, ⟨27, _⟩ => ⟨S16x12x1024, .f32⟩
  | .hbm, ⟨28, _⟩ => ⟨S16x12x1024x1, .f32⟩
  | .hbm, ⟨29, _⟩ => ⟨S16x12x1024x1024, .f32⟩
  | .hbm, ⟨30, _⟩ => ⟨S16x12x1024x1024, .f32⟩
  | .hbm, ⟨31, _⟩ => ⟨S16x12x1024x64, .f32⟩
  | .hbm, ⟨32, _⟩ => ⟨S16x1024x12x64, .f32⟩
  | .hbm, ⟨33, _⟩ => ⟨S16x1024x768, .f32⟩
  | .hbm, ⟨34, _⟩ => ⟨S16x1024x768, .f32⟩
  | .hbm, ⟨35, _⟩ => ⟨S1x1x768, .f32⟩
  | .hbm, ⟨36, _⟩ => ⟨S16x1024x768, .f32⟩
  | .hbm, ⟨37, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S16x1024x2304_S16x1024x3x12x64 : S16x1024x2304.ShapeCasts S16x1024x3x12x64
  transposes_S16x1024x3x12x64_S3x16x12x1024x64_2_0_3_1_4 : S16x1024x3x12x64.Transposes [2, 0, 3, 1, 4] S3x16x12x1024x64
  slices_S3x16x12x1024x64_S1x16x12x1024x64_0_0_0_0_0 : S3x16x12x1024x64.Slices ![0, 0, 0, 0, 0] S1x16x12x1024x64
  shapeCasts_S1x16x12x1024x64_S16x12x1024x64 : S1x16x12x1024x64.ShapeCasts S16x12x1024x64
  slices_S3x16x12x1024x64_S1x16x12x1024x64_1_0_0_0_0 : S3x16x12x1024x64.Slices ![1, 0, 0, 0, 0] S1x16x12x1024x64
  slices_S3x16x12x1024x64_S1x16x12x1024x64_2_0_0_0_0 : S3x16x12x1024x64.Slices ![2, 0, 0, 0, 0] S1x16x12x1024x64
  bcast_S_S16x12x1024x1024 : S_.BroadcastsInDim S16x12x1024x1024 (![] : Fin 0 → Fin S16x12x1024x1024.rank)
  reducesTo_S16x12x1024x1024_S16x12x1024_d3 : S16x12x1024x1024.ReducesTo [3] S16x12x1024
  h_S_ : 0 < S_.numel
  bcast_S_S16x12x1024 : S_.BroadcastsInDim S16x12x1024 (![] : Fin 0 → Fin S16x12x1024.rank)
  bcast_S16x12x1024_S16x12x1024x1_0_1_2 : S16x12x1024.BroadcastsInDim S16x12x1024x1 (![0, 1, 2] : Fin 3 → Fin S16x12x1024x1.rank)
  bcast_S16x12x1024x1_S16x12x1024x1024_0_1_2_3 : S16x12x1024x1.BroadcastsInDim S16x12x1024x1024 (![0, 1, 2, 3] : Fin 4 → Fin S16x12x1024x1024.rank)
  transposes_S16x12x1024x64_S16x1024x12x64_0_2_1_3 : S16x12x1024x64.Transposes [0, 2, 1, 3] S16x1024x12x64
  shapeCasts_S16x1024x12x64_S16x1024x768 : S16x1024x12x64.ShapeCasts S16x1024x768
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  dot_S16x1024x768_S2304x768_S16x1024x2304_2_1_01_0_n_n_wf : DotDims.WF S16x1024x768 S2304x768 S16x1024x2304 [2] [1] [0, 1] [0] [] []
  dot_S16x12x1024x64_S16x12x1024x64_S16x12x1024x1024_3_3_2_2_01_01_wf : DotDims.WF S16x12x1024x64 S16x12x1024x64 S16x12x1024x1024 [3] [3] [2] [2] [0, 1] [0, 1]
  dot_S16x12x1024x1024_S16x12x1024x64_S16x12x1024x64_3_2_2_3_01_01_wf : DotDims.WF S16x12x1024x1024 S16x12x1024x64 S16x12x1024x64 [3] [2] [2] [3] [0, 1] [0, 1]
  dot_S16x1024x768_S768x768_S16x1024x768_2_1_01_0_n_n_wf : DotDims.WF S16x1024x768 S768x768 S16x1024x768 [2] [1] [0, 1] [0] [] []

variable [Facts₀]

def dot_S16x1024x768_S2304x768_S16x1024x2304_2_1_01_0_n_n : DotDims S16x1024x768 S2304x768 S16x1024x2304 where
  lhsContracting := [2]
  rhsContracting := [1]
  lhsNonContracting := [0, 1]
  rhsNonContracting := [0]
  lhsBatch := []
  rhsBatch := []
  wf := dot_S16x1024x768_S2304x768_S16x1024x2304_2_1_01_0_n_n_wf
def dot_S16x12x1024x64_S16x12x1024x64_S16x12x1024x1024_3_3_2_2_01_01 : DotDims S16x12x1024x64 S16x12x1024x64 S16x12x1024x1024 where
  lhsContracting := [3]
  rhsContracting := [3]
  lhsNonContracting := [2]
  rhsNonContracting := [2]
  lhsBatch := [0, 1]
  rhsBatch := [0, 1]
  wf := dot_S16x12x1024x64_S16x12x1024x64_S16x12x1024x1024_3_3_2_2_01_01_wf
def dot_S16x12x1024x1024_S16x12x1024x64_S16x12x1024x64_3_2_2_3_01_01 : DotDims S16x12x1024x1024 S16x12x1024x64 S16x12x1024x64 where
  lhsContracting := [3]
  rhsContracting := [2]
  lhsNonContracting := [2]
  rhsNonContracting := [3]
  lhsBatch := [0, 1]
  rhsBatch := [0, 1]
  wf := dot_S16x12x1024x1024_S16x12x1024x64_S16x12x1024x64_3_2_2_3_01_01_wf
def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf

class Facts : Prop extends Facts₀ where

variable [Facts]
-- ==== Proof.KB.Reg0.lean ====
/-
  The first pallas_call: the QKV projection, one block of 1024 token rows per grid point.
  Stated at a parameter V, the buffer contents when the region is entered: the blocks the three
  windows stage at a point, what the body leaves in the output window's buffer (its one store, whole),
  the body's triple, the pipeline's proof data and the body obligation at every point.
-/
import proofs.«136603_j11132555231610_2_alg».proof.Proof.Gen.Kernel.Launch
import proofs.«136603_j11132555231610_2_alg».proof.Proof.Gen.Kernel.Skeleton
import proofs.«136603_j11132555231610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-- The output window's buffer after the body: its one store over the two input blocks. -/
def out0_2 (x0 : Vec F S1024x768 .f32) (x1 : Vec F S768x2304 .bf16) : Vec F S1024x2304 .bf16 :=
  View.canon [⟨r0_2, k0_pay1 (View.ld x0 r0_0) (View.ld x1 r0_1)⟩]

/-- The store covers the buffer. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging memrefs: the inputs kept, the output at out0_2 of the inputs. -/
theorem sound_kernel0 (c : Dev nD) (E : Set ℕ) (i : grid0.Coords) (arg1 : Memref sig .tc .vmem S1024x768 .f32) (harg1 : arg1.IsWhole)
    (arg2 : Memref sig .tc .vmem S768x2304 .bf16) (harg2 : arg2.IsWhole) (arg3 : Memref sig .tc .vmem S1024x2304 .bf16) (harg3 : arg3.IsWhole)
    (x0 : Vec F S1024x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Reg1.lean ====
/-
  The second pallas_call: attention, one (batch entry, pair of heads) per grid point.  The query, key
  and value windows are three blocks of ONE array, the projected lanes; the output window's block is
  written in two halves, one per head of the pair.
  Stated at a parameter V, the buffer contents when the region is entered: the blocks the four windows
  stage at a point, what the body leaves in the output window's buffer (its two stores), the body's
  triple, the pipeline's proof data (the three input windows holding the shared array at three parts
  of its full share) and the body obligation at every point.
-/
import proofs.«136603_j11132555231610_2_alg».proof.Proof.Gen.Kernel.Launch
import proofs.«136603_j11132555231610_2_alg».proof.Proof.Gen.Kernel.Skeleton
import proofs.«136603_j11132555231610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two halves of a block: lanes [0,64) (the pair's first head) and [64,128) (its second). -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's buffer after the body: its two stores, last first, over the three input blocks. -/
def out1_3 (x0 x1 x2 : Vec F S1x1024x128 .bf16) : Vec F S1x1024x128 .bf16 :=
  View.canon [⟨r1_hi, k1_pay1 (k1_pay3 (View.ld x0 r1_hi)) (k1_pay4 (View.ld x1 r1_hi)) (k1_pay5 (View.ld x2 r1_hi)) (constant S1024x1024 .f32 0x00000000#32)⟩,
    ⟨r1_lo, k1_pay2 (View.ld x0 r1_lo) (View.ld x1 r1_lo) (View.ld x2 r1_lo)⟩]

/-- The two halves tile the block. -/
theorem cover1_3 (p0 p1 : Vec F S1x1024x64 .bf16) (y : S1x1024x128.Idx) :
    ∃ pc ∈ ([⟨r1_hi, p0⟩, ⟨r1_lo, p1⟩] : List (View.Piece (Elt F) S1x1024x128 .bf16)), y ∈ pc.1.set :=
  View.cover_of_tiled [⟨r1_hi, p0⟩, ⟨r1_lo, p1⟩] S1x1024x64.size (by rfl) y

set_option maxHeartbeats 1000000 in
/-- The body on whole staging memrefs: the inputs kept, the output at out1_3 of the inputs. -/
theorem sound_kernel1 (c : Dev nD) (E : Set ℕ) (i : grid1.Coords) (arg2 : Memref sig .tc .vmem S1x1024x128 .bf16) (harg2 : arg2.IsWhole)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The three parts of the full share the three input windows hold their common array at. -/
def qA : PosShare TreeShare := fullShare.left
def qB : PosShare TreeShare := fullShare.right.left
def qC : PosShare TreeShare := fullShare.right.right

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => qA
    | ⟨1, _⟩ => qB
    | ⟨2, _⟩ => qC
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Arr1.lean ====
/-
  The attention call's arrays in and out of the core's unscoped buffers.  Its query, key and value
  windows are blocks of one array: at the region's entry that array's full share is cut in three, one
  part per window; at the exit the three parts, which still hold the entry contents (an input window is
  never written back), are put together again, and the output array goes back at what the write-backs left.
-/
import proofs.«136603_j11132555231610_2_alg».proof.Proof.KB.Reg1
import proofs.«136603_j11132555231610_2_alg».proof.Proof.Gen.Kernel.Launch
import proofs.«136603_j11132555231610_2_alg».proof.Proof.Gen.Kernel.Skeleton
import proofs.«136603_j11132555231610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped Idealize.SL.RA.PCS in
/-- A buffer held whole at the full share is held at the three parts of it. -/
theorem full_to_three {ℓ : Loc nD τ sig} (f : Buf (Elt F) ℓ) :
    ((ℓ ↦{fullShare} f) : sProp 𝕄) ⊣⊢ iprop((ℓ ↦{qA} f) ∗ (ℓ ↦{qB} f) ∗ (ℓ ↦{qC} f)) := by
  have h1 : fullShare ∈ (fullShare.left : PosShare TreeShare) ·? fullShare.right := by
    rw [PosShare.left_op_right]; exact Part.mem_some _
  have h2 : (fullShare.right : PosShare TreeShare) ∈ fullShare.right.left ·? fullShare.right.right := by
    rw [PosShare.left_op_right]; exact Part.mem_some _
  refine (pointsTo_share h1).trans ?_
  exact sep_congr .rfl (pointsTo_share h2)

variable (V : (c : Dev nD) → (b : Ref sig .tc) → Buf (Elt F) ((c : Thread nD τ).loc b))

/-- The call's windows sit on two arrays: the projected lanes (three input windows) and the context (the output). -/
theorem image_arr1 : Finset.univ.image (Pipeline.arrRef spec1) = {main_v4, main_v5} := by decide

/-- A conjunction over those two arrays, spelt out. -/
theorem bigSep_arr1 {M : Type} [URA M] (Φ : Ref sig .tc → sProp M) :
    bigSep ({main_v4, main_v5} : Finset (Ref sig .tc)) Φ = iprop(Φ main_v4 ∗ Φ main_v5) := by
  rw [bigSep_insert (by decide), bigSep_singleton]; rfl

/-- ENTRY: the core's unscoped buffers are the call's arrays at the entry contents, the shared one at its
    three parts, and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [show Finset.univ.image (Pipeline.arrRef (cfgs 1).spec) = {main_v4, main_v5} from image_arr1, bigSep_arr1, bigSep_W1]
  have e0 : (cfg1.win 0).arr.view.set = Finset.univ := (arr_whole1 0).set_eq_univ
  have e3 : (cfg1.win 3).arr.view.set = Finset.univ := (arr_whole1 3).set_eq_univ
  rw [e0, e3]
  rw [show (dat1 V c).share 0 = qA from rfl, show (dat1 V c).share 1 = qB from rfl, show (dat1 V c).share 2 = qC from rfl,
    show (dat1 V c).share 3 = fullShare from rfl]
  have h3 := (full_to_three (F := F) (V c main_v4)).1
  iintro ⟨H4, H5⟩
  ihave H := h3 $$ H4
  icases H with ⟨Ha, Hb, Hc⟩
  isplitl [Ha]; · iexact Ha
  isplitl [Hb]; · iexact Hb
  isplitl [Hc]; · iexact Hc
  iexact H5

/-- EXIT: the call's arrays after the last write-back — the shared one's three parts still at the entry
    contents, the output at what the write-backs left — and the unscoped rest are the core's unscoped
    buffers at any contents that agree with the entry's off the output array and hold that array's result. -/
theorem unscopedBufs_of_arrays1 (c : Dev nD) (V' : (b : Ref sig .tc) → Buf (Elt F) ((c : Thread nD τ).loc b))
    (hF : (dat1 V c).arrAt 3 cfg1.N = V' main_v5) (hrest : ∀ b, b ≠ main_v5 → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [show Finset.univ.image (Pipeline.arrRef (cfgs 1).spec) = {main_v4, main_v5} from image_arr1, bigSep_arr1, bigSep_W1]
    have e0 : (cfg1.win 0).arr.view.set = Finset.univ := (arr_whole1 0).set_eq_univ
    have e3 : (cfg1.win 3).arr.view.set = Finset.univ := (arr_whole1 3).set_eq_univ
    rw [e0, e3]
    rw [show (dat1 V c).share 0 = qA from rfl, show (dat1 V c).share 1 = qB from rfl, show (dat1 V c).share 2 = qC from rfl,
      show (dat1 V c).share 3 = fullShare from rfl]
    dsimp only
    rw [(dat1 V c).arrAt_in 0 rfl cfg1.N, (dat1 V c).arrAt_in 1 rfl cfg1.N, (dat1 V c).arrAt_in 2 rfl cfg1.N, hF,
      hrest main_v4 (by decide)]
    have h3 := (full_to_three (F := F) (V c main_v4)).2
    iintro ⟨Ha, Hb, Hc, H5⟩
    isplitl [Ha Hb Hc]
    · iapply h3
      isplitl [Ha]; · iexact Ha
      isplitl [Hb]; · iexact Hb
      iexact Hc
    iexact H5
  · unfold Pipeline.unscopedRest
    exact bigSep_congr fun b hb => by
      rw [hrest b (fun e => (Finset.mem_sdiff.mp hb).2 (by rw [e, image_arr1]; decide))]

end Cert.Kernel.Gen

end
-- ==== Proof.KB.Reg2.lean ====
/-
  The third pallas_call: the output projection with its bias, one block of 1024 token rows per grid point.
  Stated at a parameter V, the buffer contents when the region is entered: the blocks the four windows
  stage at a point, what the body leaves in the output window's buffer (its one store, whole), the body's
  triple, the pipeline's proof data and the body obligation at every point.
-/
import proofs.«136603_j11132555231610_2_alg».proof.Proof.Gen.Kernel.Launch
import proofs.«136603_j11132555231610_2_alg».proof.Proof.Gen.Kernel.Skeleton
import proofs.«136603_j11132555231610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each buffer whole. -/
abbrev r2_0 : Rect S1024x768 := Rect.unit (s := S1024x768) ![0, 0] S1024x768.size inb_S1024x768_S1024x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0

/-- The output window's buffer after the body: its one store over the three input blocks. -/
def out2_3 (x0 : Vec F S1024x768 .bf16) (x1 : Vec F S768x768 .bf16) (x2 : Vec F S1x768 .f32) : Vec F S1024x768 .f32 :=
  View.canon [⟨r2_0, k2_pay1 (View.ld x0 r2_0) (View.ld x1 r2_1) (View.ld x2 r2_2)⟩]

/-- The store covers the buffer. -/
theorem cover2_3 (p0 : Vec F S1024x768 .f32) (y : S1024x768.Idx) :
    ∃ pc ∈ ([⟨r2_0, p0⟩] : List (View.Piece (Elt F) S1024x768 .f32)), y ∈ pc.1.set :=
  View.cover_of_tiled [⟨r2_0, p0⟩] S1024x768.size (by rfl) y

set_option maxHeartbeats 1000000 in
/-- The body on whole staging memrefs: the inputs kept, the output at out2_3 of the inputs. -/
theorem sound_kernel2 (c : Dev nD) (E : Set ℕ) (i : grid2.Coords) (arg1 : Memref sig .tc .vmem S1024x768 .bf16) (harg1 : arg1.IsWhole)
    (arg2 : Memref sig .tc .vmem S768x768 .bf16) (harg2 : arg2.IsWhole) (arg3 : Memref sig .tc .vmem S1x768 .f32) (harg3 : arg3.IsWhole)
    (arg4 : Memref sig .tc .vmem S1024x768 .f32) (harg4 : arg4.IsWhole)
    (x0 : Vec F S1024x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.Run.lean ====
/-
  The program's run: host operations and the three pallas_calls in @main's order, from the launch to the
  return.  The buffer contents at every boundary between two items are named as a fold from the launch
  memory: a stretch of host operations applies them; a call leaves its arrays at what its write-backs
  leave and every other buffer as it found it.  Every weakly fair execution terminates, and the final
  memory holds every unscoped buffer at the last fold.
-/
import proofs.«136603_j11132555231610_2_alg».proof.Proof.KB.Reg0
import proofs.«136603_j11132555231610_2_alg».proof.Proof.KB.Arr1
import proofs.«136603_j11132555231610_2_alg».proof.Proof.KB.Reg2
import proofs.«136603_j11132555231610_2_alg».proof.Proof.Gen.Kernel.Regions
import proofs.«136603_j11132555231610_2_alg».proof.Proof.Gen.Kernel.Launch
import proofs.«136603_j11132555231610_2_alg».proof.Proof.Gen.Kernel.Skeleton
import proofs.«136603_j11132555231610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the first call's exit. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention call's exit: the context array at what its write-backs leave, every other buffer as entered. -/
def W4 (c : Dev nD) : Valuation τ sig (Elt F) :=
  Function.update (W3 m ρ c) (Proc.devRef .tc main_v5) ((dat1 (E3 m ρ) c).arrAt 3 cfg1.N)
theorem W4_out (c : Dev nD) : W4 m ρ c (Proc.devRef .tc main_v5) = (dat1 (E3 m ρ) c).arrAt 3 cfg1.N := by
  unfold W4; exact Function.update_self _ _ _
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) _ _
abbrev E4 : (c : Dev nD) → (b : Ref sig .tc) → Buf (Elt F) ((c : Thread nD τ).loc b) := fun c b => W4 m ρ c b

/-- After the third host stretch (the last call's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At the last call's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)
/-- After the last host stretch: the return. -/
abbrev W7 : Dev nD → Valuation τ sig (Elt F) := fun c => StableHlo.after hostOps3 (W6 m ρ c)

/-! ## The proof data family and the thread state -/

abbrev admR : (p : Fin 3) → (pcfgs (F := F) p).Adm := fun p => (cfgs p).toPCfg_adm
/-- Every pipeline's proof data, each at its call's entry contents. -/
def pdatsR : (p : Fin 3) → (c : Dev nD) → Dat τ (Elt F) Unit ℕ (UR sig nD τ) ℕ (Pipeline.pin (pcfgs (F := F)) admR p) c
  | ⟨0, _⟩ => fun c => dat0 (E1 m ρ) c
  | ⟨1, _⟩ => fun c => dat1 (E3 m ρ) c
  | ⟨2, _⟩ => fun c => dat2 (E5 m ρ) c
abbrev 𝒱R : Variants := Variants.none
abbrev LR : GSem nD τ sig → Finset Unit := fun _ => ∅
abbrev lvR : GSem nD τ sig → Unit → ℕ := fun _ _ => 0
/-- What rides beside the buffers: the core's generator register at some state and its owing nothing. -/
abbrev RR (c : Dev nD) : sProp 𝕄 := iprop((∃ r, prngReg c r) ∗ ∃ W, owes (c : Thread nD τ) (0 : CellTallies nD τ sig Unit) W)
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem hostOps0_freshR : (hostOps0 : List (HloOp τ sig (Elt F))).Forall fun op => op.fresh = ∅ := by
  simp only [List.Forall]; repeat' constructor
theorem hostOps1_freshR : (hostOps1 : List (HloOp τ sig (Elt F))).Forall fun op => op.fresh = ∅ := by
  simp only [List.Forall]; repeat' constructor
theorem hostOps2_freshR : (hostOps2 : List (HloOp τ sig (Elt F))).Forall fun op => op.fresh = ∅ := by
  simp only [List.Forall]; repeat' constructor
theorem hostOps3_freshR : (hostOps3 : List (HloOp τ sig (Elt F))).Forall fun op => op.fresh = ∅ := by
  simp only [List.Forall]; repeat' constructor
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev TnR (c : Dev nD) : sProp 𝕄 := iprop(StableHlo.held (c : Thread nD τ) (Pipeline.ucRefs τ sig) (W7 m ρ c) ∗ ∃ r, prngReg c r)

/-! ## The calls as segments -/

set_option backward.isDefEq.respectTransparency.types false in
def reg0R : Pipeline.RegionSeg (pcfgs (F := F)) admR (pdatsR m ρ) () defs₀ 𝒱R LR lvR 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LR lvR 0 fun _ _ => rfl
  pre c := iprop(StableHlo.held (c : Thread nD τ) (Pipeline.ucRefs τ sig) (W1 m ρ c) ∗ RR c)
  post c := iprop(StableHlo.held (c : Thread nD τ) (Pipeline.ucRefs τ sig) (W2 m ρ c) ∗ RR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admR (pdatsR m ρ) launch0.win launch0.arr_whole c
      ((pdatsR m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsR m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR m ρ) ((pdatsR m ρ 0 c).share_full fun _ => rfl)
      (E1 m ρ c) (E2 m ρ c) ((pdatsR m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1R : Pipeline.RegionSeg (pcfgs (F := F)) admR (pdatsR m ρ) () defs₀ 𝒱R LR lvR 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ LR lvR 1 fun _ _ => rfl
  pre c := iprop(StableHlo.held (c : Thread nD τ) (Pipeline.ucRefs τ sig) (W3 m ρ c) ∗ RR c)
  post c := iprop(StableHlo.held (c : Thread nD τ) (Pipeline.ucRefs τ sig) (W4 m ρ c) ∗ RR c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays1_of_unscopedBufs (F := F) (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsR m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) (E3 m ρ) c (E4 m ρ c) (W4_out m ρ c).symm
      (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2R : Pipeline.RegionSeg (pcfgs (F := F)) admR (pdatsR m ρ) () defs₀ 𝒱R LR lvR 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LR lvR 2 fun _ _ => rfl
  pre c := iprop(StableHlo.held (c : Thread nD τ) (Pipeline.ucRefs τ sig) (W5 m ρ c) ∗ RR c)
  post c := iprop(StableHlo.held (c : Thread nD τ) (Pipeline.ucRefs τ sig) (W6 m ρ c) ∗ RR c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admR (pdatsR m ρ) launch2.win launch2.arr_whole c
      ((pdatsR m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsR m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdatsR m ρ) ((pdatsR m ρ 2 c).share_full fun _ => rfl)
      (E5 m ρ c) (E6 m ρ c) ((pdatsR m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) admR (pdatsR m ρ) () defs₀ 𝒱R LR lvR) :=
  [ .host (hsegR hostOps0 hostOps0_sub hostOps0_freshR (W0 m ρ)),
    .region (reg0R m ρ),
    .host (hsegR hostOps1 hostOps1_sub hostOps1_freshR (W2 m ρ)),
    .region (reg1R m ρ),
    .host (hsegR hostOps2 hostOps2_sub hostOps2_freshR (W4 m ρ)),
    .region (reg2R m ρ),
    .host (hsegR hostOps3 hostOps3_sub hostOps3_freshR (W6 m ρ)) ]
theorem main_runR (c : Dev nD) : main (F := F) c = Pipeline.Seg.run (segsR m ρ) := (main_chain c).trans (by chain_rfl)

set_option backward.isDefEq.respectTransparency.types false in
/-- THE RUN: from any memory with zero counters every weakly fair execution of @main terminates, nothing
    faulting, and the final memory holds every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admR (pdatsR m ρ) () cellOf_inj emb₁ defs₀ 𝒱R LR lvR m ρ main (segsR m ρ)
    (fun c Q => by rw [main_runR m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := TnR m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RR c)
        ⊢ iprop(TnR m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- No host operation and no call writes argument 0: the last fold holds it as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- No host operation and no call writes argument 1: the last fold holds it as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- No host operation and no call writes argument 2: the last fold holds it as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- No host operation and no call writes argument 3: the last fold holds it as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- THE FRAME: every weakly fair execution terminates, nothing faulting, and the four argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucR main_arg0 (by decide))).trans (W7_main_arg0 m ρ c),
     (h c _ (mem_ucR main_arg1 (by decide))).trans (W7_main_arg1 m ρ c),
     (h c _ (mem_ucR main_arg2 (by decide))).trans (W7_main_arg2 m ρ c),
     (h c _ (mem_ucR main_arg3 (by decide))).trans (W7_main_arg3 m ρ c)⟩) (run_all m ρ)

end Cert.Kernel.Gen

end
-- ==== Proof.KI.Reg0.lean ====
/-
  The first pallas_call: the QKV projection, one block of 1024 token rows per grid point.
  Stated at a parameter V, the buffer contents when the region is entered: the blocks the three
  windows stage at a point, what the body leaves in the output window's buffer (its one store, whole),
  the body's triple, the pipeline's proof data and the body obligation at every point.
-/
import proofs.«136603_j11132555231610_2_alg».proof.Proof.Gen.KernelIdeal.Launch
import proofs.«136603_j11132555231610_2_alg».proof.Proof.Gen.KernelIdeal.Skeleton
import proofs.«136603_j11132555231610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-- The output window's buffer after the body: its one store over the two input blocks. -/
def out0_2 (x0 : Vec F S1024x768 .f32) (x1 : Vec F S768x2304 .bf16) : Vec F S1024x2304 .bf16 :=
  View.canon [⟨r0_2, k0_pay1 (View.ld x0 r0_0) (View.ld x1 r0_1)⟩]

/-- The store covers the buffer. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging memrefs: the inputs kept, the output at out0_2 of the inputs. -/
theorem sound_kernel0 (c : Dev nD) (E : Set ℕ) (i : grid0.Coords) (arg1 : Memref sig .tc .vmem S1024x768 .f32) (harg1 : arg1.IsWhole)
    (arg2 : Memref sig .tc .vmem S768x2304 .bf16) (harg2 : arg2.IsWhole) (arg3 : Memref sig .tc .vmem S1024x2304 .bf16) (harg3 : arg3.IsWhole)
    (x0 : Vec F S1024x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
/-
  The second pallas_call: attention, one (batch entry, pair of heads) per grid point.  The query, key
  and value windows are three blocks of ONE array, the projected lanes; the output window's block is
  written in two halves, one per head of the pair.
  Stated at a parameter V, the buffer contents when the region is entered: the blocks the four windows
  stage at a point, what the body leaves in the output window's buffer (its two stores), the body's
  triple, the pipeline's proof data (the three input windows holding the shared array at three parts
  of its full share) and the body obligation at every point.
-/
import proofs.«136603_j11132555231610_2_alg».proof.Proof.Gen.KernelIdeal.Launch
import proofs.«136603_j11132555231610_2_alg».proof.Proof.Gen.KernelIdeal.Skeleton
import proofs.«136603_j11132555231610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two halves of a block: lanes [0,64) (the pair's first head) and [64,128) (its second). -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's buffer after the body: its two stores, last first, over the three input blocks. -/
def out1_3 (x0 x1 x2 : Vec F S1x1024x128 .bf16) : Vec F S1x1024x128 .bf16 :=
  View.canon [⟨r1_hi, k1_pay1 (k1_pay3 (View.ld x0 r1_hi)) (k1_pay4 (View.ld x1 r1_hi)) (k1_pay5 (View.ld x2 r1_hi)) (constant S1024x1024 .f32 0x00000000#32)⟩,
    ⟨r1_lo, k1_pay2 (View.ld x0 r1_lo) (View.ld x1 r1_lo) (View.ld x2 r1_lo)⟩]

/-- The two halves tile the block. -/
theorem cover1_3 (p0 p1 : Vec F S1x1024x64 .bf16) (y : S1x1024x128.Idx) :
    ∃ pc ∈ ([⟨r1_hi, p0⟩, ⟨r1_lo, p1⟩] : List (View.Piece (Elt F) S1x1024x128 .bf16)), y ∈ pc.1.set :=
  View.cover_of_tiled [⟨r1_hi, p0⟩, ⟨r1_lo, p1⟩] S1x1024x64.size (by rfl) y

set_option maxHeartbeats 1000000 in
/-- The body on whole staging memrefs: the inputs kept, the output at out1_3 of the inputs. -/
theorem sound_kernel1 (c : Dev nD) (E : Set ℕ) (i : grid1.Coords) (arg2 : Memref sig .tc .vmem S1x1024x128 .bf16) (harg2 : arg2.IsWhole)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The three parts of the full share the three input windows hold their common array at. -/
def qA : PosShare TreeShare := fullShare.left
def qB : PosShare TreeShare := fullShare.right.left
def qC : PosShare TreeShare := fullShare.right.right

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => qA
    | ⟨1, _⟩ => qB
    | ⟨2, _⟩ => qC
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Arr1.lean ====
/-
  The attention call's arrays in and out of the core's unscoped buffers.  Its query, key and value
  windows are blocks of one array: at the region's entry that array's full share is cut in three, one
  part per window; at the exit the three parts, which still hold the entry contents (an input window is
  never written back), are put together again, and the output array goes back at what the write-backs left.
-/
import proofs.«136603_j11132555231610_2_alg».proof.Proof.KI.Reg1
import proofs.«136603_j11132555231610_2_alg».proof.Proof.Gen.KernelIdeal.Launch
import proofs.«136603_j11132555231610_2_alg».proof.Proof.Gen.KernelIdeal.Skeleton
import proofs.«136603_j11132555231610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped Idealize.SL.RA.PCS in
/-- A buffer held whole at the full share is held at the three parts of it. -/
theorem full_to_three {ℓ : Loc nD τ sig} (f : Buf (Elt F) ℓ) :
    ((ℓ ↦{fullShare} f) : sProp 𝕄) ⊣⊢ iprop((ℓ ↦{qA} f) ∗ (ℓ ↦{qB} f) ∗ (ℓ ↦{qC} f)) := by
  have h1 : fullShare ∈ (fullShare.left : PosShare TreeShare) ·? fullShare.right := by
    rw [PosShare.left_op_right]; exact Part.mem_some _
  have h2 : (fullShare.right : PosShare TreeShare) ∈ fullShare.right.left ·? fullShare.right.right := by
    rw [PosShare.left_op_right]; exact Part.mem_some _
  refine (pointsTo_share h1).trans ?_
  exact sep_congr .rfl (pointsTo_share h2)

variable (V : (c : Dev nD) → (b : Ref sig .tc) → Buf (Elt F) ((c : Thread nD τ).loc b))

/-- The call's windows sit on two arrays: the projected lanes (three input windows) and the context (the output). -/
theorem image_arr1 : Finset.univ.image (Pipeline.arrRef spec1) = {main_v4, main_v5} := by decide

/-- A conjunction over those two arrays, spelt out. -/
theorem bigSep_arr1 {M : Type} [URA M] (Φ : Ref sig .tc → sProp M) :
    bigSep ({main_v4, main_v5} : Finset (Ref sig .tc)) Φ = iprop(Φ main_v4 ∗ Φ main_v5) := by
  rw [bigSep_insert (by decide), bigSep_singleton]; rfl

/-- ENTRY: the core's unscoped buffers are the call's arrays at the entry contents, the shared one at its
    three parts, and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [show Finset.univ.image (Pipeline.arrRef (cfgs 1).spec) = {main_v4, main_v5} from image_arr1, bigSep_arr1, bigSep_W1]
  have e0 : (cfg1.win 0).arr.view.set = Finset.univ := (arr_whole1 0).set_eq_univ
  have e3 : (cfg1.win 3).arr.view.set = Finset.univ := (arr_whole1 3).set_eq_univ
  rw [e0, e3]
  rw [show (dat1 V c).share 0 = qA from rfl, show (dat1 V c).share 1 = qB from rfl, show (dat1 V c).share 2 = qC from rfl,
    show (dat1 V c).share 3 = fullShare from rfl]
  have h3 := (full_to_three (F := F) (V c main_v4)).1
  iintro ⟨H4, H5⟩
  ihave H := h3 $$ H4
  icases H with ⟨Ha, Hb, Hc⟩
  isplitl [Ha]; · iexact Ha
  isplitl [Hb]; · iexact Hb
  isplitl [Hc]; · iexact Hc
  iexact H5

/-- EXIT: the call's arrays after the last write-back — the shared one's three parts still at the entry
    contents, the output at what the write-backs left — and the unscoped rest are the core's unscoped
    buffers at any contents that agree with the entry's off the output array and hold that array's result. -/
theorem unscopedBufs_of_arrays1 (c : Dev nD) (V' : (b : Ref sig .tc) → Buf (Elt F) ((c : Thread nD τ).loc b))
    (hF : (dat1 V c).arrAt 3 cfg1.N = V' main_v5) (hrest : ∀ b, b ≠ main_v5 → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [show Finset.univ.image (Pipeline.arrRef (cfgs 1).spec) = {main_v4, main_v5} from image_arr1, bigSep_arr1, bigSep_W1]
    have e0 : (cfg1.win 0).arr.view.set = Finset.univ := (arr_whole1 0).set_eq_univ
    have e3 : (cfg1.win 3).arr.view.set = Finset.univ := (arr_whole1 3).set_eq_univ
    rw [e0, e3]
    rw [show (dat1 V c).share 0 = qA from rfl, show (dat1 V c).share 1 = qB from rfl, show (dat1 V c).share 2 = qC from rfl,
      show (dat1 V c).share 3 = fullShare from rfl]
    dsimp only
    rw [(dat1 V c).arrAt_in 0 rfl cfg1.N, (dat1 V c).arrAt_in 1 rfl cfg1.N, (dat1 V c).arrAt_in 2 rfl cfg1.N, hF,
      hrest main_v4 (by decide)]
    have h3 := (full_to_three (F := F) (V c main_v4)).2
    iintro ⟨Ha, Hb, Hc, H5⟩
    isplitl [Ha Hb Hc]
    · iapply h3
      isplitl [Ha]; · iexact Ha
      isplitl [Hb]; · iexact Hb
      iexact Hc
    iexact H5
  · unfold Pipeline.unscopedRest
    exact bigSep_congr fun b hb => by
      rw [hrest b (fun e => (Finset.mem_sdiff.mp hb).2 (by rw [e, image_arr1]; decide))]

end Cert.KernelIdeal.Gen

end
-- ==== Proof.KI.Reg2.lean ====
/-
  The third pallas_call: the output projection with its bias, one block of 1024 token rows per grid point.
  Stated at a parameter V, the buffer contents when the region is entered: the blocks the four windows
  stage at a point, what the body leaves in the output window's buffer (its one store, whole), the body's
  triple, the pipeline's proof data and the body obligation at every point.
-/
import proofs.«136603_j11132555231610_2_alg».proof.Proof.Gen.KernelIdeal.Launch
import proofs.«136603_j11132555231610_2_alg».proof.Proof.Gen.KernelIdeal.Skeleton
import proofs.«136603_j11132555231610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each buffer whole. -/
abbrev r2_0 : Rect S1024x768 := Rect.unit (s := S1024x768) ![0, 0] S1024x768.size inb_S1024x768_S1024x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0

/-- The output window's buffer after the body: its one store over the three input blocks. -/
def out2_3 (x0 : Vec F S1024x768 .bf16) (x1 : Vec F S768x768 .bf16) (x2 : Vec F S1x768 .f32) : Vec F S1024x768 .f32 :=
  View.canon [⟨r2_0, k2_pay1 (View.ld x0 r2_0) (View.ld x1 r2_1) (View.ld x2 r2_2)⟩]

/-- The store covers the buffer. -/
theorem cover2_3 (p0 : Vec F S1024x768 .f32) (y : S1024x768.Idx) :
    ∃ pc ∈ ([⟨r2_0, p0⟩] : List (View.Piece (Elt F) S1024x768 .f32)), y ∈ pc.1.set :=
  View.cover_of_tiled [⟨r2_0, p0⟩] S1024x768.size (by rfl) y

set_option maxHeartbeats 1000000 in
/-- The body on whole staging memrefs: the inputs kept, the output at out2_3 of the inputs. -/
theorem sound_kernel2 (c : Dev nD) (E : Set ℕ) (i : grid2.Coords) (arg1 : Memref sig .tc .vmem S1024x768 .bf16) (harg1 : arg1.IsWhole)
    (arg2 : Memref sig .tc .vmem S768x768 .bf16) (harg2 : arg2.IsWhole) (arg3 : Memref sig .tc .vmem S1x768 .f32) (harg3 : arg3.IsWhole)
    (arg4 : Memref sig .tc .vmem S1024x768 .f32) (harg4 : arg4.IsWhole)
    (x0 : Vec F S1024x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Run.lean ====
/-
  The program's run: host operations and the three pallas_calls in @main's order, from the launch to the
  return.  The buffer contents at every boundary between two items are named as a fold from the launch
  memory: a stretch of host operations applies them; a call leaves its arrays at what its write-backs
  leave and every other buffer as it found it.  Every weakly fair execution terminates, and the final
  memory holds every unscoped buffer at the last fold.
-/
import proofs.«136603_j11132555231610_2_alg».proof.Proof.KI.Reg0
import proofs.«136603_j11132555231610_2_alg».proof.Proof.KI.Arr1
import proofs.«136603_j11132555231610_2_alg».proof.Proof.KI.Reg2
import proofs.«136603_j11132555231610_2_alg».proof.Proof.Gen.KernelIdeal.Regions
import proofs.«136603_j11132555231610_2_alg».proof.Proof.Gen.KernelIdeal.Launch
import proofs.«136603_j11132555231610_2_alg».proof.Proof.Gen.KernelIdeal.Skeleton
import proofs.«136603_j11132555231610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the first call's exit. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention call's exit: the context array at what its write-backs leave, every other buffer as entered. -/
def W4 (c : Dev nD) : Valuation τ sig (Elt F) :=
  Function.update (W3 m ρ c) (Proc.devRef .tc main_v5) ((dat1 (E3 m ρ) c).arrAt 3 cfg1.N)
theorem W4_out (c : Dev nD) : W4 m ρ c (Proc.devRef .tc main_v5) = (dat1 (E3 m ρ) c).arrAt 3 cfg1.N := by
  unfold W4; exact Function.update_self _ _ _
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) _ _
abbrev E4 : (c : Dev nD) → (b : Ref sig .tc) → Buf (Elt F) ((c : Thread nD τ).loc b) := fun c b => W4 m ρ c b

/-- After the third host stretch (the last call's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At the last call's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)
/-- After the last host stretch: the return. -/
abbrev W7 : Dev nD → Valuation τ sig (Elt F) := fun c => StableHlo.after hostOps3 (W6 m ρ c)

/-! ## The proof data family and the thread state -/

abbrev admR : (p : Fin 3) → (pcfgs (F := F) p).Adm := fun p => (cfgs p).toPCfg_adm
/-- Every pipeline's proof data, each at its call's entry contents. -/
def pdatsR : (p : Fin 3) → (c : Dev nD) → Dat τ (Elt F) Unit ℕ (UR sig nD τ) ℕ (Pipeline.pin (pcfgs (F := F)) admR p) c
  | ⟨0, _⟩ => fun c => dat0 (E1 m ρ) c
  | ⟨1, _⟩ => fun c => dat1 (E3 m ρ) c
  | ⟨2, _⟩ => fun c => dat2 (E5 m ρ) c
abbrev 𝒱R : Variants := Variants.none
abbrev LR : GSem nD τ sig → Finset Unit := fun _ => ∅
abbrev lvR : GSem nD τ sig → Unit → ℕ := fun _ _ => 0
/-- What rides beside the buffers: the core's generator register at some state and its owing nothing. -/
abbrev RR (c : Dev nD) : sProp 𝕄 := iprop((∃ r, prngReg c r) ∗ ∃ W, owes (c : Thread nD τ) (0 : CellTallies nD τ sig Unit) W)
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem hostOps0_freshR : (hostOps0 : List (HloOp τ sig (Elt F))).Forall fun op => op.fresh = ∅ := by
  simp only [List.Forall]; repeat' constructor
theorem hostOps1_freshR : (hostOps1 : List (HloOp τ sig (Elt F))).Forall fun op => op.fresh = ∅ := by
  simp only [List.Forall]; repeat' constructor
theorem hostOps2_freshR : (hostOps2 : List (HloOp τ sig (Elt F))).Forall fun op => op.fresh = ∅ := by
  simp only [List.Forall]; repeat' constructor
theorem hostOps3_freshR : (hostOps3 : List (HloOp τ sig (Elt F))).Forall fun op => op.fresh = ∅ := by
  simp only [List.Forall]; repeat' constructor
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev TnR (c : Dev nD) : sProp 𝕄 := iprop(StableHlo.held (c : Thread nD τ) (Pipeline.ucRefs τ sig) (W7 m ρ c) ∗ ∃ r, prngReg c r)

/-! ## The calls as segments -/

set_option backward.isDefEq.respectTransparency.types false in
def reg0R : Pipeline.RegionSeg (pcfgs (F := F)) admR (pdatsR m ρ) () defs₀ 𝒱R LR lvR 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LR lvR 0 fun _ _ => rfl
  pre c := iprop(StableHlo.held (c : Thread nD τ) (Pipeline.ucRefs τ sig) (W1 m ρ c) ∗ RR c)
  post c := iprop(StableHlo.held (c : Thread nD τ) (Pipeline.ucRefs τ sig) (W2 m ρ c) ∗ RR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admR (pdatsR m ρ) launch0.win launch0.arr_whole c
      ((pdatsR m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsR m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR m ρ) ((pdatsR m ρ 0 c).share_full fun _ => rfl)
      (E1 m ρ c) (E2 m ρ c) ((pdatsR m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1R : Pipeline.RegionSeg (pcfgs (F := F)) admR (pdatsR m ρ) () defs₀ 𝒱R LR lvR 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ LR lvR 1 fun _ _ => rfl
  pre c := iprop(StableHlo.held (c : Thread nD τ) (Pipeline.ucRefs τ sig) (W3 m ρ c) ∗ RR c)
  post c := iprop(StableHlo.held (c : Thread nD τ) (Pipeline.ucRefs τ sig) (W4 m ρ c) ∗ RR c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays1_of_unscopedBufs (F := F) (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsR m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) (E3 m ρ) c (E4 m ρ c) (W4_out m ρ c).symm
      (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2R : Pipeline.RegionSeg (pcfgs (F := F)) admR (pdatsR m ρ) () defs₀ 𝒱R LR lvR 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LR lvR 2 fun _ _ => rfl
  pre c := iprop(StableHlo.held (c : Thread nD τ) (Pipeline.ucRefs τ sig) (W5 m ρ c) ∗ RR c)
  post c := iprop(StableHlo.held (c : Thread nD τ) (Pipeline.ucRefs τ sig) (W6 m ρ c) ∗ RR c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admR (pdatsR m ρ) launch2.win launch2.arr_whole c
      ((pdatsR m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsR m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdatsR m ρ) ((pdatsR m ρ 2 c).share_full fun _ => rfl)
      (E5 m ρ c) (E6 m ρ c) ((pdatsR m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) admR (pdatsR m ρ) () defs₀ 𝒱R LR lvR) :=
  [ .host (hsegR hostOps0 hostOps0_sub hostOps0_freshR (W0 m ρ)),
    .region (reg0R m ρ),
    .host (hsegR hostOps1 hostOps1_sub hostOps1_freshR (W2 m ρ)),
    .region (reg1R m ρ),
    .host (hsegR hostOps2 hostOps2_sub hostOps2_freshR (W4 m ρ)),
    .region (reg2R m ρ),
    .host (hsegR hostOps3 hostOps3_sub hostOps3_freshR (W6 m ρ)) ]
theorem main_runR (c : Dev nD) : main (F := F) c = Pipeline.Seg.run (segsR m ρ) := (main_chain c).trans (by chain_rfl)

set_option backward.isDefEq.respectTransparency.types false in
/-- THE RUN: from any memory with zero counters every weakly fair execution of @main terminates, nothing
    faulting, and the final memory holds every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admR (pdatsR m ρ) () cellOf_inj emb₁ defs₀ 𝒱R LR lvR m ρ main (segsR m ρ)
    (fun c Q => by rw [main_runR m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := TnR m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RR c)
        ⊢ iprop(TnR m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- No host operation and no call writes argument 0: the last fold holds it as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- No host operation and no call writes argument 1: the last fold holds it as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- No host operation and no call writes argument 2: the last fold holds it as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- No host operation and no call writes argument 3: the last fold holds it as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- THE FRAME: every weakly fair execution terminates, nothing faulting, and the four argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucR main_arg0 (by decide))).trans (W7_main_arg0 m ρ c),
     (h c _ (mem_ucR main_arg1 (by decide))).trans (W7_main_arg1 m ρ c),
     (h c _ (mem_ucR main_arg2 (by decide))).trans (W7_main_arg2 m ρ c),
     (h c _ (mem_ucR main_arg3 (by decide))).trans (W7_main_arg3 m ρ c)⟩) (run_all m ρ)

end Cert.KernelIdeal.Gen

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.PayLib.lean ====
import Idealize.ShloMosaic.Lib.ValueIdx
import Idealize.ShloMosaic.Lib.ValueLayout
import Idealize.ShloMosaic.Lib.Pipeline.Value
import Idealize.ShloMosaic.PureOps.Ideal.Laws
import proofs.«136603_j11132555231610_2_alg».proof.Proof.LibColumn
import proofs.«136603_j11132555231610_2_alg».proof.Proof.LibPlainDot

/-!
Small facts about matrices read at an index, on the extended reals, general in the extents.

* A product of an [M, K] matrix with the rows of an [N, K] matrix (both contracted on their last axis) into a zero
  accumulator: at (p, q) the sum over k of x (p, k) · W (q, k).
* The maximum and the sum of a matrix along its rows, read at row p: the fold of max from the starting word's value,
  and the plain sum, over the row's entries.
-/

noncomputable section

namespace Cert.Pay

open Idealize.ShloMosaic Idealize.ShloMosaic.ValueIdx

variable {φ₁ φ₂ : FTy}

/-! ## A product contracted on both operands' last axis -/

theorem lhs_row_t (M K N : Nat) (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem rhs_row_t (M K N : Nat) (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction sum of such a product, over the literal Fin K. -/
theorem contr_sum_t (M K N : Nat) (x : (⟨2, ![M, K]⟩ : Shape).Idx → EReal) (W : (⟨2, ![N, K]⟩ : Shape).Idx → EReal)
    (p : Fin M) (q : Fin N) :
    ∑ k : (DotDims.transposedRhs M K N).contr.Idx,
        x ((DotDims.transposedRhs M K N).lhsIdx (ix2 p q) k) * W ((DotDims.transposedRhs M K N).rhsIdx (ix2 p q) k)
      = ∑ k : Fin K, x (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k :=
    funext fun a => Fin.ext (by
      match a with
      | ⟨0, _⟩ => exact lhs_row_t M K N _ _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k)
      = ix2 q k :=
    funext fun a => Fin.ext (by
      match a with
      | ⟨0, _⟩ => exact rhs_row_t M K N _ _
      | ⟨1, _⟩ => exact ((DotDims.transposedRhs M K N).rhsIdx_val_of_single rfl _ _).trans hk)
  rw [el, er]

/-- The product into the zero accumulator, at (p, q). -/
theorem matmul_zero_apply_t (M K N : Nat) (prec : Option ContractPrecision)
    (x : FVec Ideal ⟨2, ![M, K]⟩ φ₁) (W : FVec Ideal ⟨2, ![N, K]⟩ φ₂) (p : Fin M) (q : Fin N) :
    FloatOps.matmul (DotDims.transposedRhs M K N) prec x W (constant ⟨2, ![M, N]⟩ .f32 0x00000000#32) (ix2 p q)
      = ∑ k : Fin K, x (ix2 p k) * W (ix2 q k) := by
  rw [Ideal.matmul_constant_zero_apply]
  exact contr_sum_t M K N x W p q

/-! ## The maximum and the sum along the rows of a matrix -/

/-- The index of row p with the column m put back. -/
theorem lift_row {a n : ℕ} (hred : (⟨2, ![a, n]⟩ : Shape).Reduces [1] ⟨1, ![a]⟩) (p : Fin a) (m : Fin n) :
    hred.lift (ix1 p) m = ix2 p m :=
  funext fun ax => by
    match ax with
    | ⟨0, _⟩ => rfl
    | ⟨1, _⟩ => rfl

/-- The row maxima of an [a, n] matrix at the ideal values, read at row p: the fold of max over the row, from the value
    of the starting word. -/
theorem rowMax_apply {a n : ℕ} (src : FVec Ideal ⟨2, ![a, n]⟩ .f32) (acc : BitVec 32)
    (hred : (⟨2, ![a, n]⟩ : Shape).Reduces [1] ⟨1, ![a]⟩) (hφ : FKind.Formats .f32)
    (hacc : acc = FKind.maximumf.neutral .f32 hφ) (p : Fin a) :
    multiReduction .maximumf [1] ⟨1, ![a]⟩ src acc hred hφ hacc (ix1 p)
      = (Finset.univ : Finset (Fin n)).fold max (Ideal.ofBits .f32 acc) (fun m => src (ix2 p m)) := by
  refine (Ideal.multiReduction_maximumf_single src acc hred hφ hacc (ix1 p)).trans ?_
  refine congrArg (Finset.fold max (Ideal.ofBits .f32 acc) · (Finset.univ : Finset (Fin n))) ?_
  exact funext fun m => congrArg src (lift_row hred p m)

/-- The row sums of an [a, n] matrix at the ideal values, read at row p. -/
theorem rowSum_apply {a n : ℕ} (src : FVec Ideal ⟨2, ![a, n]⟩ .f32) (acc : BitVec 32)
    (hred : (⟨2, ![a, n]⟩ : Shape).Reduces [1] ⟨1, ![a]⟩) (hφ : FKind.Formats .f32)
    (hacc : acc = FKind.add.neutral .f32 hφ) (p : Fin a) :
    multiReduction .add [1] ⟨1, ![a]⟩ src acc hred hφ hacc (ix1 p) = ∑ m : Fin n, src (ix2 p m) := by
  refine (Ideal.multiReduction_add_single src acc hred hφ hacc (ix1 p)).trans ?_
  exact Finset.sum_congr rfl fun m _ => congrArg src (lift_row hred p m)

end Cert.Pay

end
-- ==== Proof.Pay0.lean ====
import proofs.«136603_j11132555231610_2_alg».proof.Proof.Gen.KernelIdeal.Skeleton
import proofs.«136603_j11132555231610_2_alg».proof.Proof.PayLib

/-!
The projection block read at an index: a block of 1024 token rows of 768 features times the 768 x 2304 weight block,
accumulated from zero; the format changes before and after are the identity on the extended reals. Entry (r, o) is the
sum over the 768 features of x (r, c) · w (c, o).
-/

noncomputable section

namespace Cert.Pay

open Idealize.ShloMosaic Idealize.ShloMosaic.ValueIdx Cert.KernelIdeal Cert.KernelIdeal.Gen

theorem pay0_apply (x : Vec Ideal S1024x768 .f32) (w : Vec Ideal S768x2304 .bf16) (r : Fin 1024) (o : Fin 2304) :
    k0_pay1 (F := Ideal) x w (ix2 r o) = ∑ c : Fin 768, x (ix2 r c) * w (ix2 c o) := by
  unfold k0_pay1
  rw [truncf_apply, shapeCast_self, shapeCast_self]
  exact PlainDot.matmul_zero_apply 1024 768 2304 none (truncf .bf16 x _) w r o

end Cert.Pay

end
-- ==== Proof.KI.Val0.lean ====
/-
  The first call, from blocks to the whole array.

  Grid point t stages rows [1024 t, 1024 t + 1024) of the 16384 x 768 token array and the whole
  768 x 2304 weight array, and writes rows [1024 t, 1024 t + 1024) of the 16384 x 2304 result.
  Entry (r, o) of a block is the sum over the 768 features of the token block's row r against
  weight column o; row r of block t is row 1024 t + r of the array, so what point t writes back
  is block t of ONE function of the two arrays: entry (R, o) is the sum over k of token (R, k)
  times weight (k, o).  The 16 blocks cover the rows (row R lies in block R / 1024), so the
  result array ends holding that function.
-/
import proofs.«136603_j11132555231610_2_alg».proof.Proof.KI.Reg0
import proofs.«136603_j11132555231610_2_alg».proof.Proof.Pay0
import Idealize.ShloMosaic.Lib.Pipeline.Value

noncomputable section

namespace Cert.KVal

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-- The result array as one function of the token array and the weight array. -/
def G0 (A : S16384x768.Idx → EReal) (W : S768x2304.Idx → EReal) : S16384x2304.Idx → EReal :=
  fun i => ∑ k : Fin 768, A (ix2 (⟨(i 0).val, (i 0).isLt⟩ : Fin 16384) k) * W (ix2 k (⟨(i 1).val, (i 1).isLt⟩ : Fin 2304))

theorem G0_apply (A : S16384x768.Idx → EReal) (W : S768x2304.Idx → EReal) (r : Fin 16384) (o : Fin 2304) :
    G0 A W (ix2 r o) = ∑ k : Fin 768, A (ix2 r k) * W (ix2 k o) := rfl

/-- The block indices over the 16 grid points: the token and result windows move down the rows with the point,
    the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row r of the token block at point t is row 1024 t + r of the token array. -/
theorem blk0_0 (c : Dev nD) (t : Fin cfg0.N) (r : Fin 1024) (k : Fin 768) (R : Fin 16384) (hR : R.val = t.val * 1024 + r.val) :
    (iblk0 V c 0 t : S1024x768.Idx → EReal) (ix2 r k) = (V c main_v0 : S16384x768.Idx → EReal) (ix2 R k) := by
  obtain ⟨e0, e1, -, -, -, -⟩ := idx_facts0 t
  unfold iblk0
  rw [View.read_apply]
  show (V c main_v0 : S16384x768.Idx → EReal) _ = _
  refine congrArg (V c main_v0 : S16384x768.Idx → EReal) (funext fun a => Fin.ext ?_)
  match a with
  | ⟨0, _⟩ => show win0_0.index t (0 : Fin 2) * 1024 + 1 * r.val = R.val; rw [e0, hR]; omega
  | ⟨1, _⟩ => show win0_0.index t (1 : Fin 2) * 768 + 1 * k.val = k.val; rw [e1]; omega

/-- The weight block at every point is the weight array. -/
theorem blk0_1 (c : Dev nD) (t : Fin cfg0.N) (k : Fin 768) (o : Fin 2304) :
    (iblk0 V c 1 t : S768x2304.Idx → EReal) (ix2 k o) = (V c main_v2 : S768x2304.Idx → EReal) (ix2 k o) := by
  obtain ⟨-, -, e2, e3, -, -⟩ := idx_facts0 t
  unfold iblk0
  rw [View.read_apply]
  show (V c main_v2 : S768x2304.Idx → EReal) _ = _
  refine congrArg (V c main_v2 : S768x2304.Idx → EReal) (funext fun a => Fin.ext ?_)
  match a with
  | ⟨0, _⟩ => show win0_1.index t (0 : Fin 2) * 768 + 1 * k.val = k.val; rw [e2]; omega
  | ⟨1, _⟩ => show win0_1.index t (1 : Fin 2) * 2304 + 1 * o.val = o.val; rw [e3]; omega

/-- Entry (r, o) of the result block at point t sits at (1024 t + r, o) of the result array. -/
theorem emb0_2 (t : Fin cfg0.N) (r : Fin 1024) (o : Fin 2304) (R : Fin 16384) (hR : R.val = t.val * 1024 + r.val) :
    (((cfg0.win 2).blk t).view.emb (ix2 r o) : S16384x2304.Idx) = ix2 R o := by
  obtain ⟨-, -, -, -, e4, e5⟩ := idx_facts0 t
  funext a; apply Fin.ext
  match a with
  | ⟨0, _⟩ => show win0_2.index t (0 : Fin 2) * 1024 + 1 * r.val = R.val; rw [e4, hR]; omega
  | ⟨1, _⟩ => show win0_2.index t (1 : Fin 2) * 2304 + 1 * o.val = o.val; rw [e5]; omega

/-- What point t writes back is block t of the one function of the two arrays. -/
theorem flushed0_eq (c : Dev nD) (t : Fin cfg0.N) :
    (dat0 V c).flushed 2 t = ((cfg0.win 2).blk t).view.read (Elt Ideal) (G0 (V c main_v0) (V c main_v2)) := by
  show (cfg0.win 2).cut (grid0.coords t) ((dat0 V c).after 2 t) = _
  rw [after0_2]
  unfold out0_2
  rw [View.canon_unit_zero hz2]
  simp only [View.ld_unit_zero (S := S1024x768) hz2, View.ld_unit_zero (S := S768x2304) hz2]
  funext j
  obtain ⟨r, o, rfl⟩ : ∃ (r : Fin 1024) (o : Fin 2304), j = ix2 r o := ⟨j 0, j 1, eq_ix2 j⟩
  have ht : t.val < 16 := lt_of_lt_of_eq t.isLt N_0
  have hr := r.isLt
  rw [View.read_apply, emb0_2 t r o ⟨t.val * 1024 + r.val, by omega⟩ rfl, G0_apply]
  show k0_pay1 (F := Ideal) (iblk0 V c 0 t) (iblk0 V c 1 t) (ix2 r o) = _
  refine (Cert.Pay.pay0_apply (iblk0 V c 0 t) (iblk0 V c 1 t) r o).trans ?_
  refine Finset.sum_congr rfl fun k _ => ?_
  rw [blk0_0 V c t r k ⟨t.val * 1024 + r.val, by omega⟩ rfl, blk0_1 V c t k o]

/-- An index of the result array is in point t's block iff each coordinate is in the block's range on its axis. -/
theorem mem_blk0_2 (t : Fin cfg0.N) (i : S16384x2304.Idx) :
    i ∈ ((cfg0.win 2).blk t).view.set ↔ ∀ a : Fin 2, win0_2.index t a * S1024x2304.size a ≤ (i a).val
      ∧ (i a).val < win0_2.index t a * S1024x2304.size a + S1024x2304.size a := by
  show i ∈ ((View.whole main_v3).slice (win0_2.rect t)).set ↔ _
  rw [View.set_slice_whole, Rect.mem_set_unit]
  exact Iff.rfl

/-- Row R of the result array lies in the block of point R / 1024. -/
theorem cover0_2 (i : S16384x2304.Idx) :
    ∃ t : Fin cfg0.N, (cfg0.win 2).flush t = true ∧ i ∈ ((cfg0.win 2).blk t).view.set := by
  have hi0 : (i 0).val < 16384 := (i 0).isLt
  have hi1 : (i 1).val < 2304 := (i 1).isLt
  refine ⟨⟨(i 0).val / 1024, by rw [show cfg0.N = 16 from N_0]; omega⟩, flush0_2 _, ?_⟩
  rw [mem_blk0_2]
  obtain ⟨-, -, -, -, e4, e5⟩ := idx_facts0 ⟨(i 0).val / 1024, by rw [show cfg0.N = 16 from N_0]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 2304 ≤ (i 1).val ∧ (i 1).val < win0_2.index _ (1 : Fin 2) * 2304 + 2304
    rw [e5]; omega

/-- The result array after the call is the one function of the two arrays. -/
theorem final0 (c : Dev nD) : (dat0 V c).arrAt 2 cfg0.N = G0 (V c main_v0) (V c main_v2) :=
  (dat0 V c).arrAt_eq_of_cover 2 (G0 (V c main_v0) (V c main_v2)) (fun t _ => flushed0_eq V c t) cover0_2

/-- Entry (r, o) of the result array after the call: row r of the token array against column o of the weight array
    (the two arrays named as functions of their coordinates). -/
theorem arr0 (c : Dev nD) (r : Fin 16384) (o : Fin 2304) (A : S16384x768.Idx → EReal) (W : S768x2304.Idx → EReal)
    (hA : A = V c main_v0) (hW : W = V c main_v2) :
    ((dat0 (F := Ideal) V c).arrAt 2 cfg0.N : S16384x2304.Idx → EReal) (ix2 r o) = ∑ k : Fin 768, A (ix2 r k) * W (ix2 k o) := by
  subst hA; subst hW
  rw [final0 V c]
  rfl

end Cert.KVal

end
-- ==== Proof.Pay2.lean ====
import proofs.«136603_j11132555231610_2_alg».proof.Proof.Gen.KernelIdeal.Skeleton
import proofs.«136603_j11132555231610_2_alg».proof.Proof.PayLib

/-!
The output projection block read at an index: a block of 1024 context rows of 768 features times the 768 x 768 weight
block, accumulated from zero, plus the bias row repeated down the 1024 rows. Entry (r, j) is the sum over the 768
features of a (r, c) · w (c, j), plus bias (0, j).
-/

noncomputable section

namespace Cert.Pay

open Idealize.ShloMosaic Idealize.ShloMosaic.ValueIdx Cert.KernelIdeal Cert.KernelIdeal.Gen

theorem pay2_apply (a : Vec Ideal S1024x768 .bf16) (w : Vec Ideal S768x768 .bf16) (bias : Vec Ideal S1x768 .f32)
    (r : Fin 1024) (j : Fin 768) :
    k2_pay1 (F := Ideal) a w bias (ix2 r j) = (∑ c : Fin 768, a (ix2 r c) * w (ix2 c j)) + bias (ix2 0 j) := by
  unfold k2_pay1
  rw [addf_apply, shapeCast_self, shapeCast_self, shapeCast_self, broadcastTo_1b_ab_apply]
  exact congrArg (· + bias (ix2 (0 : Fin 1) j)) (PlainDot.matmul_zero_apply 1024 768 768 none a w r j)

end Cert.Pay

end
-- ==== Proof.KI.Val2.lean ====
/-
  The third call, from blocks to the whole array.

  Grid point t stages rows [1024 t, 1024 t + 1024) of the 16384 x 768 context array, the whole
  768 x 768 output weight array and the whole 1 x 768 bias row, and writes rows
  [1024 t, 1024 t + 1024) of the 16384 x 768 result.  Entry (r, j) of a block is the sum over the
  768 features of the context block's row r against weight column j, plus bias entry j; row r of
  block t is row 1024 t + r of the array, so what point t writes back is block t of ONE function
  of the three arrays.  The 16 blocks cover the rows (row R lies in block R / 1024), so the result
  array ends holding that function.
-/
import proofs.«136603_j11132555231610_2_alg».proof.Proof.KI.Reg2
import proofs.«136603_j11132555231610_2_alg».proof.Proof.Pay2
import Idealize.ShloMosaic.Lib.Pipeline.Value

noncomputable section

namespace Cert.KVal

open Cert.KernelIdeal Cert.KernelIdeal.Gen Idealize.ShloMosaic Idealize.ShloMosaic.TcCoe Idealize.SL.Sem
open Idealize.ShloMosaic.ValueIdx
open Idealize.ShloMosaic.Pipeline (Dat)

theorem hz2' : (![0, 0] : Fin 2 → Nat) = fun _ => 0 := funext fun a => by fin_cases a <;> rfl

/-- The result array as one function of the context array, the output weight array and the bias row. -/
def G2 (A : S16384x768.Idx → EReal) (W : S768x768.Idx → EReal) (B : S1x768.Idx → EReal) : S16384x768.Idx → EReal :=
  fun i => (∑ k : Fin 768, A (ix2 (⟨(i 0).val, (i 0).isLt⟩ : Fin 16384) k) * W (ix2 k (⟨(i 1).val, (i 1).isLt⟩ : Fin 768)))
    + B (ix2 (0 : Fin 1) (⟨(i 1).val, (i 1).isLt⟩ : Fin 768))

theorem G2_apply (A : S16384x768.Idx → EReal) (W : S768x768.Idx → EReal) (B : S1x768.Idx → EReal) (r : Fin 16384) (j : Fin 768) :
    G2 A W B (ix2 r j) = (∑ k : Fin 768, A (ix2 r k) * W (ix2 k j)) + B (ix2 (0 : Fin 1) j) := rfl

/-- The block indices over the 16 grid points: the context and result windows move down the rows with the point,
    the weight and bias windows stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row r of the context block at point t is row 1024 t + r of the context array. -/
theorem blk2_0 (c : Dev nD) (t : Fin cfg2.N) (r : Fin 1024) (k : Fin 768) (R : Fin 16384) (hR : R.val = t.val * 1024 + r.val) :
    (iblk2 V c 0 t : S1024x768.Idx → EReal) (ix2 r k) = (V c main_v6 : S16384x768.Idx → EReal) (ix2 R k) := by
  obtain ⟨e0, e1, -, -, -, -, -, -⟩ := idx_facts2 t
  unfold iblk2
  rw [View.read_apply]
  show (V c main_v6 : S16384x768.Idx → EReal) _ = _
  refine congrArg (V c main_v6 : S16384x768.Idx → EReal) (funext fun a => Fin.ext ?_)
  match a with
  | ⟨0, _⟩ => show win2_0.index t (0 : Fin 2) * 1024 + 1 * r.val = R.val; rw [e0, hR]; omega
  | ⟨1, _⟩ => show win2_0.index t (1 : Fin 2) * 768 + 1 * k.val = k.val; rw [e1]; omega

/-- The weight block at every point is the weight array. -/
theorem blk2_1 (c : Dev nD) (t : Fin cfg2.N) (k : Fin 768) (j : Fin 768) :
    (iblk2 V c 1 t : S768x768.Idx → EReal) (ix2 k j) = (V c main_v8 : S768x768.Idx → EReal) (ix2 k j) := by
  obtain ⟨-, -, e2, e3, -, -, -, -⟩ := idx_facts2 t
  unfold iblk2
  rw [View.read_apply]
  show (V c main_v8 : S768x768.Idx → EReal) _ = _
  refine congrArg (V c main_v8 : S768x768.Idx → EReal) (funext fun a => Fin.ext ?_)
  match a with
  | ⟨0, _⟩ => show win2_1.index t (0 : Fin 2) * 768 + 1 * k.val = k.val; rw [e2]; omega
  | ⟨1, _⟩ => show win2_1.index t (1 : Fin 2) * 768 + 1 * j.val = j.val; rw [e3]; omega

/-- The bias block at every point is the bias row. -/
theorem blk2_2 (c : Dev nD) (t : Fin cfg2.N) (z : Fin 1) (j : Fin 768) :
    (iblk2 V c 2 t : S1x768.Idx → EReal) (ix2 z j) = (V c main_v9 : S1x768.Idx → EReal) (ix2 z j) := by
  obtain ⟨-, -, -, -, e4, e5, -, -⟩ := idx_facts2 t
  unfold iblk2
  rw [View.read_apply]
  show (V c main_v9 : S1x768.Idx → EReal) _ = _
  refine congrArg (V c main_v9 : S1x768.Idx → EReal) (funext fun a => Fin.ext ?_)
  match a with
  | ⟨0, _⟩ => show win2_2.index t (0 : Fin 2) * 1 + 1 * z.val = z.val; rw [e4]; omega
  | ⟨1, _⟩ => show win2_2.index t (1 : Fin 2) * 768 + 1 * j.val = j.val; rw [e5]; omega

/-- Entry (r, j) of the result block at point t sits at (1024 t + r, j) of the result array. -/
theorem emb2_3 (t : Fin cfg2.N) (r : Fin 1024) (j : Fin 768) (R : Fin 16384) (hR : R.val = t.val * 1024 + r.val) :
    (((cfg2.win 3).blk t).view.emb (ix2 r j) : S16384x768.Idx) = ix2 R j := by
  obtain ⟨-, -, -, -, -, -, e6, e7⟩ := idx_facts2 t
  funext a; apply Fin.ext
  match a with
  | ⟨0, _⟩ => show win2_3.index t (0 : Fin 2) * 1024 + 1 * r.val = R.val; rw [e6, hR]; omega
  | ⟨1, _⟩ => show win2_3.index t (1 : Fin 2) * 768 + 1 * j.val = j.val; rw [e7]; omega

/-- What point t writes back is block t of the one function of the three arrays. -/
theorem flushed2_eq (c : Dev nD) (t : Fin cfg2.N) :
    (dat2 V c).flushed 3 t = ((cfg2.win 3).blk t).view.read (Elt Ideal) (G2 (V c main_v6) (V c main_v8) (V c main_v9)) := by
  show (cfg2.win 3).cut (grid2.coords t) ((dat2 V c).after 3 t) = _
  rw [after2_3]
  unfold out2_3
  rw [View.canon_unit_zero hz2']
  simp only [View.ld_unit_zero (S := S1024x768) hz2', View.ld_unit_zero (S := S768x768) hz2', View.ld_unit_zero (S := S1x768) hz2']
  funext x
  obtain ⟨r, j, rfl⟩ : ∃ (r : Fin 1024) (j : Fin 768), x = ix2 r j := ⟨x 0, x 1, eq_ix2 x⟩
  have ht : t.val < 16 := lt_of_lt_of_eq t.isLt N_2
  have hr := r.isLt
  rw [View.read_apply, emb2_3 t r j ⟨t.val * 1024 + r.val, by omega⟩ rfl, G2_apply]
  show k2_pay1 (F := Ideal) (iblk2 V c 0 t) (iblk2 V c 1 t) (iblk2 V c 2 t) (ix2 r j) = _
  refine (Cert.Pay.pay2_apply (iblk2 V c 0 t) (iblk2 V c 1 t) (iblk2 V c 2 t) r j).trans ?_
  rw [blk2_2 V c t 0 j]
  refine congrArg (· + _) (Finset.sum_congr rfl fun k _ => ?_)
  rw [blk2_0 V c t r k ⟨t.val * 1024 + r.val, by omega⟩ rfl, blk2_1 V c t k j]

/-- An index of the result array is in point t's block iff each coordinate is in the block's range on its axis. -/
theorem mem_blk2_3 (t : Fin cfg2.N) (i : S16384x768.Idx) :
    i ∈ ((cfg2.win 3).blk t).view.set ↔ ∀ a : Fin 2, win2_3.index t a * S1024x768.size a ≤ (i a).val
      ∧ (i a).val < win2_3.index t a * S1024x768.size a + S1024x768.size a := by
  show i ∈ ((View.whole main_v10).slice (win2_3.rect t)).set ↔ _
  rw [View.set_slice_whole, Rect.mem_set_unit]
  exact Iff.rfl

/-- Row R of the result array lies in the block of point R / 1024. -/
theorem cover2_3' (i : S16384x768.Idx) :
    ∃ t : Fin cfg2.N, (cfg2.win 3).flush t = true ∧ i ∈ ((cfg2.win 3).blk t).view.set := by
  have hi0 : (i 0).val < 16384 := (i 0).isLt
  have hi1 : (i 1).val < 768 := (i 1).isLt
  refine ⟨⟨(i 0).val / 1024, by rw [show cfg2.N = 16 from N_2]; omega⟩, flush2_3 _, ?_⟩
  rw [mem_blk2_3]
  obtain ⟨-, -, -, -, -, -, e6, e7⟩ := idx_facts2 ⟨(i 0).val / 1024, by rw [show cfg2.N = 16 from N_2]; omega⟩
  intro a
  match a with
  | ⟨0, _⟩ =>
    show win2_3.index _ (0 : Fin 2) * 1024 ≤ (i 0).val ∧ (i 0).val < win2_3.index _ (0 : Fin 2) * 1024 + 1024
    rw [e6]; show (i 0).val / 1024 * 1024 ≤ (i 0).val ∧ (i 0).val < (i 0).val / 1024 * 1024 + 1024; omega
  | ⟨1, _⟩ =>
    show win2_3.index _ (1 : Fin 2) * 768 ≤ (i 1).val ∧ (i 1).val < win2_3.index _ (1 : Fin 2) * 768 + 768
    rw [e7]; omega

/-- The result array after the call is the one function of the three arrays. -/
theorem final2 (c : Dev nD) : (dat2 V c).arrAt 3 cfg2.N = G2 (V c main_v6) (V c main_v8) (V c main_v9) :=
  (dat2 V c).arrAt_eq_of_cover 3 (G2 (V c main_v6) (V c main_v8) (V c main_v9)) (fun t _ => flushed2_eq V c t) cover2_3'

/-- Entry (r, j) of the result array after the call: row r of the context array against column j of the weight array,
    plus bias entry j (the three arrays named as functions of their coordinates). -/
theorem arr2 (c : Dev nD) (r : Fin 16384) (j : Fin 768) (A : S16384x768.Idx → EReal) (W : S768x768.Idx → EReal)
    (B : S1x768.Idx → EReal) (hA : A = V c main_v6) (hW : W = V c main_v8) (hB : B = V c main_v9) :
    ((dat2 (F := Ideal) V c).arrAt 3 cfg2.N : S16384x768.Idx → EReal) (ix2 r j)
      = (∑ k : Fin 768, A (ix2 r k) * W (ix2 k j)) + B (ix2 (0 : Fin 1) j) := by
  subst hA; subst hW; subst hB
  rw [final2 V c]
  rfl

end Cert.KVal

end
-- ==== Proof.Spec.lean ====
/-
  The function both programs compute, over the extended reals.

  A token row x(b,n,·) of 768 features is projected to 2304 lanes by the weight rows w(o,·):
  lanes [0,768) are the queries, [768,1536) the keys, [1536,2304) the values, each split into
  12 heads of 64 lanes.  One head attends over the 1024 positions of its batch entry:
  the scores are the scaled dot products of a query row with every key row, the weights their
  softmax (the exponential of the score less the row's maximum, divided by the row's sum), the
  context row the weighted sum of the value rows.  The 12 context rows side by side are the 768
  features that the output projection (weight rows wp(j,·), bias) maps to the result.
-/
import Idealize.ShloMosaic.PureOps.Ideal
import Idealize.ShloMosaic.Lib.ValueIdx

noncomputable section

namespace Cert.Attn

open Idealize.ShloMosaic Idealize.ShloMosaic.ValueIdx

/-- The score scale 1/8 = 64^(-1/2), as the binary word both programs spell. -/
def scale : EReal := Ideal.ofBits .f32 0x3E000000#32
/-- The value the row maximum starts from: the word of -∞. -/
def negInf : EReal := Ideal.ofBits .f32 0xFF800000#32

/-! ## One attention head: queries, keys, values as 1024 rows of 64 lanes -/

/-- The scaled dot product of query row n and key row m. -/
def score (q k : Fin 1024 → Fin 64 → EReal) (n m : Fin 1024) : EReal :=
  (∑ d : Fin 64, q n d * k m d) * scale
/-- The largest score of query row n. -/
def rowMax (q k : Fin 1024 → Fin 64 → EReal) (n : Fin 1024) : EReal :=
  (Finset.univ : Finset (Fin 1024)).fold max negInf (fun m => score q k n m)
/-- The shifted exponential of a score. -/
def expo (q k : Fin 1024 → Fin 64 → EReal) (n m : Fin 1024) : EReal :=
  Ideal.exp (score q k n m - rowMax q k n)
/-- The softmax denominator of query row n. -/
def denom (q k : Fin 1024 → Fin 64 → EReal) (n : Fin 1024) : EReal :=
  ∑ m : Fin 1024, expo q k n m
/-- The attention weight of key row m for query row n. -/
def weight (q k : Fin 1024 → Fin 64 → EReal) (n m : Fin 1024) : EReal :=
  Ideal.div (expo q k n m) (denom q k n)
/-- The context row: the weighted sum of the value rows. -/
def head (q k v : Fin 1024 → Fin 64 → EReal) (n : Fin 1024) (d : Fin 64) : EReal :=
  ∑ m : Fin 1024, weight q k n m * v m d

/-! ## The whole layer over the four argument arrays -/

/-- The projected lane o of token (b, n). -/
def qkv (x : (⟨3, ![16, 1024, 768]⟩ : Shape).Idx → EReal) (w : (⟨2, ![2304, 768]⟩ : Shape).Idx → EReal)
    (b : Fin 16) (n : Fin 1024) (o : Fin 2304) : EReal :=
  ∑ c : Fin 768, x (ix3 b n c) * w (ix2 o c)

/-- Lane d of head h of part s (0 queries, 1 keys, 2 values) among the 2304 projected lanes. -/
def lane (s : Fin 3) (h : Fin 12) (d : Fin 64) : Fin 2304 := ⟨s.val * 768 + h.val * 64 + d.val, by omega⟩

/-- Context lane d of head h for token (b, n). -/
def ctx (x : (⟨3, ![16, 1024, 768]⟩ : Shape).Idx → EReal) (w : (⟨2, ![2304, 768]⟩ : Shape).Idx → EReal)
    (b : Fin 16) (h : Fin 12) (n : Fin 1024) (d : Fin 64) : EReal :=
  head (fun n d => qkv x w b n (lane 0 h d)) (fun m d => qkv x w b m (lane 1 h d)) (fun m d => qkv x w b m (lane 2 h d)) n d

/-- Context feature c (head c / 64, lane c % 64) of token (b, n). -/
def ctxFeat (x : (⟨3, ![16, 1024, 768]⟩ : Shape).Idx → EReal) (w : (⟨2, ![2304, 768]⟩ : Shape).Idx → EReal)
    (b : Fin 16) (n : Fin 1024) (c : Fin 768) : EReal :=
  ctx x w b ⟨c.val / 64, by omega⟩ n ⟨c.val % 64, by omega⟩

/-- Output feature j of token (b, n). -/
def out (x : (⟨3, ![16, 1024, 768]⟩ : Shape).Idx → EReal) (w : (⟨2, ![2304, 768]⟩ : Shape).Idx → EReal)
    (wp : (⟨2, ![768, 768]⟩ : Shape).Idx → EReal) (bias : (⟨1, ![768]⟩ : Shape).Idx → EReal)
    (b : Fin 16) (n : Fin 1024) (j : Fin 768) : EReal :=
  (∑ c : Fin 768, ctxFeat x w b n c * wp (ix2 j c)) + bias (ix1 j)

/-- The result array. -/
def G (x : (⟨3, ![16, 1024, 768]⟩ : Shape).Idx → EReal) (w : (⟨2, ![2304, 768]⟩ : Shape).Idx → EReal)
    (wp : (⟨2, ![768, 768]⟩ : Shape).Idx → EReal) (bias : (⟨1, ![768]⟩ : Shape).Idx → EReal) :
    (⟨3, ![16, 1024, 768]⟩ : Shape).Idx → EReal :=
  fun i => out x w wp bias (i 0) (i 1) (i 2)

theorem G_apply (x : (⟨3, ![16, 1024, 768]⟩ : Shape).Idx → EReal) (w : (⟨2, ![2304, 768]⟩ : Shape).Idx → EReal)
    (wp : (⟨2, ![768, 768]⟩ : Shape).Idx → EReal) (bias : (⟨1, ![768]⟩ : Shape).Idx → EReal)
    (b : Fin 16) (n : Fin 1024) (j : Fin 768) : G x w wp bias (ix3 b n j) = out x w wp bias b n j := rfl

end Cert.Attn

end
-- ==== Proof.Pay1.lean ====
import proofs.«136603_j11132555231610_2_alg».proof.Proof.Gen.KernelIdeal.Skeleton
import proofs.«136603_j11132555231610_2_alg».proof.Proof.PayLib
import proofs.«136603_j11132555231610_2_alg».proof.Proof.Spec

/-!
One attention head read at an index.

The head's three operands are 1024 rows of 64 lanes: queries Q, keys K, values V. The scores matrix is Q times the
transpose of K, accumulated from zero, times the scale word; each row's maximum is taken from the word of -∞, kept as a
column and repeated across the row; the shifted exponentials are divided by their row sum, kept and repeated the same
way; the weights times V, accumulated from zero, is the context. Format changes are the identity on the extended reals,
and the unit leading axis of the stored block is only a relabelling. Entry (n, d) is therefore the sum over the 1024 key
rows m of weight (n, m) · V (m, d), with the weights the softmax of row n of the scaled scores.
-/

noncomputable section

namespace Cert.Pay

open Idealize.ShloMosaic Idealize.ShloMosaic.ValueIdx Cert.KernelIdeal Cert.KernelIdeal.Gen

/-- The scaled scores of every query row against every key row. -/
def scores (Q K : FVec Ideal S1024x64 .bf16) : FVec Ideal S1024x1024 .f32 :=
  mulf (matmul dot_S1024x64_S1024x64_S1024x1024_1_1_0_0_n_n none Q K (constant S1024x1024 .f32 0x00000000#32))
    (broadcast S1024x1024 (Scalar.ofBits .f32 0x3E000000#32 : Ideal .f32))

/-- Each row's maximum, from the word of -∞, repeated across the row. -/
def maxCol (s : FVec Ideal S1024x1024 .f32) : FVec Ideal S1024x1024 .f32 :=
  broadcastTo S1024x1024
    (shapeCast S1024x1 (multiReduction .maximumf [1] S1024 s 0xFF800000#32 reduces_S1024x1024_S1024 (.inl rfl) rfl)
      shapeCasts_S1024_S1024x1) broadcasts_S1024x1_S1024x1024

/-- Each row's sum, repeated across the row. -/
def sumCol (e : FVec Ideal S1024x1024 .f32) : FVec Ideal S1024x1024 .f32 :=
  broadcastTo S1024x1024
    (shapeCast S1024x1 (multiReduction .add [1] S1024 e 0x00000000#32 reduces_S1024x1024_S1024 (.inl rfl) rfl)
      shapeCasts_S1024_S1024x1) broadcasts_S1024x1_S1024x1024

/-- The exponentials of the scores less their row's maximum. -/
def expos (Q K : FVec Ideal S1024x64 .bf16) : FVec Ideal S1024x1024 .f32 :=
  exp (subf (scores Q K) (maxCol (scores Q K)))

/-- The attention weights: the exponentials over their row's sum. -/
def weights (Q K : FVec Ideal S1024x64 .bf16) : FVec Ideal S1024x1024 .f32 :=
  divf (expos Q K) (sumCol (expos Q K))

theorem scores_apply (Q K : FVec Ideal S1024x64 .bf16) (n m : Fin 1024) :
    scores Q K (ix2 n m) = Cert.Attn.score (fun n d => Q (ix2 n d)) (fun m d => K (ix2 m d)) n m := by
  unfold scores Cert.Attn.score Cert.Attn.scale
  rw [mulf_apply, broadcast_apply]
  exact congrArg (· * Ideal.ofBits .f32 0x3E000000#32) (matmul_zero_apply_t 1024 64 1024 none Q K n m)

theorem maxCol_apply (s : FVec Ideal S1024x1024 .f32) (n m : Fin 1024) :
    maxCol s (ix2 n m)
      = (Finset.univ : Finset (Fin 1024)).fold max (Ideal.ofBits .f32 0xFF800000#32) (fun m' => s (ix2 n m')) := by
  unfold maxCol
  rw [broadcastTo_a1_ab_apply, shapeCast_a_a1_apply]
  exact rowMax_apply s 0xFF800000#32 reduces_S1024x1024_S1024 (.inl rfl) rfl n

theorem sumCol_apply (e : FVec Ideal S1024x1024 .f32) (n m : Fin 1024) :
    sumCol e (ix2 n m) = ∑ m' : Fin 1024, e (ix2 n m') := by
  unfold sumCol
  rw [broadcastTo_a1_ab_apply, shapeCast_a_a1_apply]
  exact rowSum_apply e 0x00000000#32 reduces_S1024x1024_S1024 (.inl rfl) rfl n

theorem expos_apply (Q K : FVec Ideal S1024x64 .bf16) (n m : Fin 1024) :
    expos Q K (ix2 n m) = Cert.Attn.expo (fun n d => Q (ix2 n d)) (fun m d => K (ix2 m d)) n m := by
  unfold expos Cert.Attn.expo Cert.Attn.rowMax Cert.Attn.negInf
  show Ideal.exp (scores Q K (ix2 n m) - maxCol (scores Q K) (ix2 n m)) = _
  rw [maxCol_apply]
  have hs : ∀ m', scores Q K (ix2 n m')
      = Cert.Attn.score (fun n d => Q (ix2 n d)) (fun m d => K (ix2 m d)) n m' := fun m' => scores_apply Q K n m'
  rw [hs m, funext hs]

theorem weights_apply (Q K : FVec Ideal S1024x64 .bf16) (n m : Fin 1024) :
    weights Q K (ix2 n m) = Cert.Attn.weight (fun n d => Q (ix2 n d)) (fun m d => K (ix2 m d)) n m := by
  unfold weights Cert.Attn.weight Cert.Attn.denom
  rw [divf_apply, sumCol_apply]
  exact congrArg₂ Ideal.div (expos_apply Q K n m) (Finset.sum_congr rfl fun m' _ => expos_apply Q K n m')

/-- One head over its three operands as 1024 x 64 matrices. -/
theorem head_apply (Q K V : FVec Ideal S1024x64 .bf16) (n : Fin 1024) (d : Fin 64) :
    k1_pay1 (F := Ideal) Q K V (constant S1024x1024 .f32 0x00000000#32) (ix3 (0 : Fin 1) n d)
      = Cert.Attn.head (fun n d => Q (ix2 n d)) (fun m d => K (ix2 m d)) (fun m d => V (ix2 m d)) n d := by
  show shapeCast S1x1024x64
      (truncf .bf16 (matmul dot_S1024x1024_S1024x64_S1024x64_1_0_0_1_n_n none (truncf .bf16 (weights Q K) _) V
        (constant S1024x64 .f32 0x00000000#32)) _) _ (ix3 (0 : Fin 1) n d) = _
  rw [shapeCast_ab_1ab_apply, truncf_apply]
  refine (PlainDot.matmul_zero_apply 1024 1024 64 none _ V n d).trans ?_
  unfold Cert.Attn.head
  exact Finset.sum_congr rfl fun m _ => congrArg (· * V (ix2 m d)) (weights_apply Q K n m)

/-- The head whose operands arrive as matrices cut from the stored blocks. -/
theorem pay1b_apply (q k v : Vec Ideal S1x1024x64 .bf16) (n : Fin 1024) (d : Fin 64) :
    k1_pay1 (F := Ideal) (k1_pay3 q) (k1_pay4 k) (k1_pay5 v) (constant S1024x1024 .f32 0x00000000#32) (ix3 0 n d)
      = Cert.Attn.head (fun n d => q (ix3 0 n d)) (fun m d => k (ix3 0 m d)) (fun m d => v (ix3 0 m d)) n d := by
  refine (head_apply _ _ _ n d).trans ?_
  have e3 : (fun n d => k1_pay3 (F := Ideal) q (ix2 n d)) = fun (n : Fin 1024) (d : Fin 64) => q (ix3 (0 : Fin 1) n d) :=
    funext fun n => funext fun d => shapeCast_1ab_ab_apply q _ n d
  have e4 : (fun n d => k1_pay4 (F := Ideal) k (ix2 n d)) = fun (n : Fin 1024) (d : Fin 64) => k (ix3 (0 : Fin 1) n d) :=
    funext fun n => funext fun d => shapeCast_1ab_ab_apply k _ n d
  have e5 : (fun n d => k1_pay5 (F := Ideal) v (ix2 n d)) = fun (n : Fin 1024) (d : Fin 64) => v (ix3 (0 : Fin 1) n d) :=
    funext fun n => funext fun d => shapeCast_1ab_ab_apply v _ n d
  rw [e3, e4, e5]

/-- The head that cuts its operands itself: the same term. -/
theorem pay1a_apply (q k v : Vec Ideal S1x1024x64 .bf16) (n : Fin 1024) (d : Fin 64) :
    k1_pay2 (F := Ideal) q k v (ix3 0 n d)
      = Cert.Attn.head (fun n d => q (ix3 0 n d)) (fun m d => k (ix3 0 m d)) (fun m d => v (ix3 0 m d)) n d :=
  pay1b_apply q k v n d

end Cert.Pay

end
-- ==== Proof.KI.Val1.lean ====
import proofs.«136603_j11132555231610_2_alg».proof.Proof.KI.Reg1
import proofs.«136603_j11132555231610_2_alg».proof.Proof.Pay1
import Idealize.ShloMosaic.Lib.Pipeline.Value

/-!
The attention call from blocks to the whole array, on the extended reals.

A grid point (b, p) stages lanes [128 p, 128 p + 128) of batch entry b's queries, and the same lanes of its keys and
values, 768 and 1536 lanes further on: two heads side by side, 2 p in lanes [0, 64) of the block and 2 p + 1 in lanes
[64, 128). The body stores each head's context into its half of the output block, which is written back to lanes
[128 p, 128 p + 128) of entry b of the result. So feature j of token (b, n) of the result is lane j % 64 of the context
of head j / 64, the head's operands being the query, key and value lanes of that head among the 2304 projected lanes;
and the 96 output blocks tile the result array.
-/

noncomputable section

namespace Cert.KVal

open Cert.KernelIdeal Cert.KernelIdeal.Gen
open Idealize.ShloMosaic Idealize.ShloMosaic.ValueIdx Idealize.ShloMosaic.TcCoe Idealize.SL.Sem
open Idealize.ShloMosaic.Pipeline (Dat)

/-! ## One block: the two stores as one function of the three staged blocks -/

theorem head_congr {q q' k k' v v' : Fin 1024 → Fin 64 → EReal} (hq : q = q') (hk : k = k') (hv : v = v')
    {n n' : Fin 1024} (hn : n = n') {d d' : Fin 64} (hd : d = d') :
    Cert.Attn.head q k v n d = Cert.Attn.head q' k' v' n' d' := by
  subst hq hk hv hn hd; rfl

/-- Head g (0 or 1) of the pair of heads staged in the three blocks, at row n and lane d. -/
def pairHead (x0 x1 x2 : S1x1024x128.Idx → EReal) (g : Fin 2) (n : Fin 1024) (d : Fin 64) : EReal :=
  Cert.Attn.head (fun n d => x0 (ix3 (0 : Fin 1) n (⟨g.val * 64 + d.val, by omega⟩ : Fin 128)))
    (fun m d => x1 (ix3 (0 : Fin 1) m (⟨g.val * 64 + d.val, by omega⟩ : Fin 128)))
    (fun m d => x2 (ix3 (0 : Fin 1) m (⟨g.val * 64 + d.val, by omega⟩ : Fin 128))) n d

/-- The output block: lane l of row n is lane l % 64 of head l / 64 of the pair. -/
def blockOut (x0 x1 x2 : S1x1024x128.Idx → EReal) : S1x1024x128.Idx → EReal := fun y =>
  pairHead x0 x1 x2 ⟨(y 2).val / 64, by have h : (y 2).val < 128 := (y 2).isLt; omega⟩ (y 1) ⟨(y 2).val % 64, by omega⟩

theorem emb_lo (u : Fin 1) (n : Fin 1024) (d : Fin 64) :
    r1_lo.emb (ix3 u n d) = ix3 (0 : Fin 1) n (⟨(0 : Fin 2).val * 64 + d.val, by omega⟩ : Fin 128) :=
  funext fun a => Fin.ext (by
    rw [Rect.emb_apply]
    match a with
    | ⟨0, _⟩ => show 0 + 1 * u.val = 0; omega
    | ⟨1, _⟩ => show 0 + 1 * n.val = n.val; omega
    | ⟨2, _⟩ => show 0 + 1 * d.val = 0 * 64 + d.val; omega)

theorem emb_hi (u : Fin 1) (n : Fin 1024) (d : Fin 64) :
    r1_hi.emb (ix3 u n d) = ix3 (0 : Fin 1) n (⟨(1 : Fin 2).val * 64 + d.val, by omega⟩ : Fin 128) :=
  funext fun a => Fin.ext (by
    rw [Rect.emb_apply]
    match a with
    | ⟨0, _⟩ => show 0 + 1 * u.val = 0; omega
    | ⟨1, _⟩ => show 0 + 1 * n.val = n.val; omega
    | ⟨2, _⟩ => show 64 + 1 * d.val = 1 * 64 + d.val; omega)

theorem blockOut_apply (x0 x1 x2 : S1x1024x128.Idx → EReal) (g : Fin 2) (n : Fin 1024) (d : Fin 64) :
    blockOut x0 x1 x2 (ix3 (0 : Fin 1) n (⟨g.val * 64 + d.val, by omega⟩ : Fin 128)) = pairHead x0 x1 x2 g n d := by
  have eg : (⟨(g.val * 64 + d.val) / 64, by omega⟩ : Fin 2) = g := Fin.ext (by show (g.val * 64 + d.val) / 64 = g.val; omega)
  have ed : (⟨(g.val * 64 + d.val) % 64, by omega⟩ : Fin 64) = d := Fin.ext (by show (g.val * 64 + d.val) % 64 = d.val; omega)
  show pairHead x0 x1 x2 ⟨(g.val * 64 + d.val) / 64, _⟩ n ⟨(g.val * 64 + d.val) % 64, _⟩ = _
  rw [eg, ed]

/-- The store into lanes [0, 64): the first head of the pair. -/
theorem lo_piece (x0 x1 x2 : Vec Ideal S1x1024x128 .bf16) (x : S1x1024x64.Idx) :
    k1_pay2 (F := Ideal) (View.ld x0 r1_lo) (View.ld x1 r1_lo) (View.ld x2 r1_lo) x = blockOut x0 x1 x2 (r1_lo.emb x) := by
  obtain ⟨u, n, d, rfl⟩ : ∃ (u : Fin 1) (n : Fin 1024) (d : Fin 64), x = ix3 u n d := ⟨x 0, x 1, x 2, eq_ix3 x⟩
  obtain rfl : u = 0 := Subsingleton.elim _ _
  rw [emb_lo, blockOut_apply]
  refine (Cert.Pay.pay1a_apply _ _ _ n d).trans ?_
  unfold pairHead
  exact head_congr (funext fun n' => funext fun d' => congrArg x0 (emb_lo 0 n' d'))
    (funext fun n' => funext fun d' => congrArg x1 (emb_lo 0 n' d'))
    (funext fun n' => funext fun d' => congrArg x2 (emb_lo 0 n' d')) rfl rfl

/-- The store into lanes [64, 128): the second head of the pair. -/
theorem hi_piece (x0 x1 x2 : Vec Ideal S1x1024x128 .bf16) (x : S1x1024x64.Idx) :
    k1_pay1 (F := Ideal) (k1_pay3 (View.ld x0 r1_hi)) (k1_pay4 (View.ld x1 r1_hi)) (k1_pay5 (View.ld x2 r1_hi))
        (constant S1024x1024 .f32 0x00000000#32) x = blockOut x0 x1 x2 (r1_hi.emb x) := by
  obtain ⟨u, n, d, rfl⟩ : ∃ (u : Fin 1) (n : Fin 1024) (d : Fin 64), x = ix3 u n d := ⟨x 0, x 1, x 2, eq_ix3 x⟩
  obtain rfl : u = 0 := Subsingleton.elim _ _
  rw [emb_hi, blockOut_apply]
  refine (Cert.Pay.pay1b_apply _ _ _ n d).trans ?_
  unfold pairHead
  exact head_congr (funext fun n' => funext fun d' => congrArg x0 (emb_hi 0 n' d'))
    (funext fun n' => funext fun d' => congrArg x1 (emb_hi 0 n' d'))
    (funext fun n' => funext fun d' => congrArg x2 (emb_hi 0 n' d')) rfl rfl

/-- What the body leaves in the output block, index by index. -/
theorem out1_3_apply (x0 x1 x2 : Vec Ideal S1x1024x128 .bf16) (y : S1x1024x128.Idx) :
    out1_3 (F := Ideal) x0 x1 x2 y = blockOut x0 x1 x2 y := by
  unfold out1_3
  refine View.canon_apply_of_pieces (Val := Elt Ideal) (e := .bf16) (blockOut x0 x1 x2) _ ?_ y (cover1_3 _ _ y)
  intro p hp x
  rcases List.mem_cons.mp hp with rfl | hp
  · exact hi_piece x0 x1 x2 x
  · obtain rfl := List.mem_singleton.mp hp
    exact lo_piece x0 x1 x2 x

/-! ## The whole array: feature j of token (b, n) -/

/-- Feature j of token (b, n): lane j % 64 of the context of head j / 64, over the projected lanes A. -/
def feat (A : S16x1024x2304.Idx → EReal) (b : Fin 16) (n : Fin 1024) (j : Fin 768) : EReal :=
  Cert.Attn.head (fun n d => A (ix3 b n (Cert.Attn.lane 0 ⟨j.val / 64, by omega⟩ d)))
    (fun m d => A (ix3 b m (Cert.Attn.lane 1 ⟨j.val / 64, by omega⟩ d)))
    (fun m d => A (ix3 b m (Cert.Attn.lane 2 ⟨j.val / 64, by omega⟩ d))) n ⟨j.val % 64, by omega⟩

/-- The result array as one function of the projected lanes. -/
def Gf (A : S16x1024x2304.Idx → EReal) : S16x1024x768.Idx → EReal := fun i => feat A (i 0) (i 1) (i 2)

theorem feat_apply (A : S16x1024x2304.Idx → EReal) (b : Fin 16) (n : Fin 1024) (h : Fin 12) (d : Fin 64) :
    feat A b n ⟨h.val * 64 + d.val, by omega⟩
      = Cert.Attn.head (fun n d => A (ix3 b n (Cert.Attn.lane 0 h d))) (fun m d => A (ix3 b m (Cert.Attn.lane 1 h d)))
          (fun m d => A (ix3 b m (Cert.Attn.lane 2 h d))) n d := by
  have eh : (⟨(h.val * 64 + d.val) / 64, by omega⟩ : Fin 12) = h := Fin.ext (by show (h.val * 64 + d.val) / 64 = h.val; omega)
  have ed : (⟨(h.val * 64 + d.val) % 64, by omega⟩ : Fin 64) = d := Fin.ext (by show (h.val * 64 + d.val) % 64 = d.val; omega)
  show Cert.Attn.head (fun n d' => A (ix3 b n (Cert.Attn.lane 0 ⟨(h.val * 64 + d.val) / 64, _⟩ d')))
    (fun m d' => A (ix3 b m (Cert.Attn.lane 1 ⟨(h.val * 64 + d.val) / 64, _⟩ d')))
    (fun m d' => A (ix3 b m (Cert.Attn.lane 2 ⟨(h.val * 64 + d.val) / 64, _⟩ d'))) n ⟨(h.val * 64 + d.val) % 64, _⟩ = _
  rw [eh, ed]

/-- A block of the result from blocks of the projected lanes: when the three staged blocks are lanes
    [128 p, 128 p + 128) of entry b's queries, keys (768 further) and values (1536 further), the output block is lanes
    [128 p, 128 p + 128) of entry b of the result. -/
theorem blockOut_eq (A : S16x1024x2304.Idx → EReal) (x0 x1 x2 : S1x1024x128.Idx → EReal) (b p : ℕ) (hb : b < 16) (hp : p < 6)
    (h0 : ∀ (n : Fin 1024) (l : Fin 128), x0 (ix3 (0 : Fin 1) n l) = A (ix3 (⟨b, hb⟩ : Fin 16) n (⟨128 * p + l.val, by omega⟩ : Fin 2304)))
    (h1 : ∀ (n : Fin 1024) (l : Fin 128), x1 (ix3 (0 : Fin 1) n l) = A (ix3 (⟨b, hb⟩ : Fin 16) n (⟨768 + 128 * p + l.val, by omega⟩ : Fin 2304)))
    (h2 : ∀ (n : Fin 1024) (l : Fin 128), x2 (ix3 (0 : Fin 1) n l) = A (ix3 (⟨b, hb⟩ : Fin 16) n (⟨1536 + 128 * p + l.val, by omega⟩ : Fin 2304)))
    (n : Fin 1024) (l : Fin 128) :
    blockOut x0 x1 x2 (ix3 (0 : Fin 1) n l) = feat A ⟨b, hb⟩ n ⟨128 * p + l.val, by omega⟩ := by
  unfold blockOut pairHead feat
  exact head_congr
    (funext fun n' => funext fun d' => (h0 n' _).trans (congrArg A (congrArg (ix3 (⟨b, hb⟩ : Fin 16) n') (Fin.ext (by
      show 128 * p + (l.val / 64 * 64 + d'.val) = 0 * 768 + (128 * p + l.val) / 64 * 64 + d'.val; omega)))))
    (funext fun n' => funext fun d' => (h1 n' _).trans (congrArg A (congrArg (ix3 (⟨b, hb⟩ : Fin 16) n') (Fin.ext (by
      show 768 + 128 * p + (l.val / 64 * 64 + d'.val) = 1 * 768 + (128 * p + l.val) / 64 * 64 + d'.val; omega)))))
    (funext fun n' => funext fun d' => (h2 n' _).trans (congrArg A (congrArg (ix3 (⟨b, hb⟩ : Fin 16) n') (Fin.ext (by
      show 1536 + 128 * p + (l.val / 64 * 64 + d'.val) = 2 * 768 + (128 * p + l.val) / 64 * 64 + d'.val; omega)))))
    rfl (Fin.ext (by show l.val % 64 = (128 * p + l.val) % 64; omega))

/-- The same with the block's index and the array's index given by their coordinates. -/
theorem blockOut_eq_Gf (A : S16x1024x2304.Idx → EReal) (x0 x1 x2 : S1x1024x128.Idx → EReal) (b p : ℕ) (hb : b < 16) (hp : p < 6)
    (h0 : ∀ (n : Fin 1024) (l : Fin 128), x0 (ix3 (0 : Fin 1) n l) = A (ix3 (⟨b, hb⟩ : Fin 16) n (⟨128 * p + l.val, by omega⟩ : Fin 2304)))
    (h1 : ∀ (n : Fin 1024) (l : Fin 128), x1 (ix3 (0 : Fin 1) n l) = A (ix3 (⟨b, hb⟩ : Fin 16) n (⟨768 + 128 * p + l.val, by omega⟩ : Fin 2304)))
    (h2 : ∀ (n : Fin 1024) (l : Fin 128), x2 (ix3 (0 : Fin 1) n l) = A (ix3 (⟨b, hb⟩ : Fin 16) n (⟨1536 + 128 * p + l.val, by omega⟩ : Fin 2304)))
    (y : S1x1024x128.Idx) (i : S16x1024x768.Idx)
    (hi0 : (i 0).val = b) (hi1 : (i 1).val = (y 1).val) (hi2 : (i 2).val = 128 * p + (y 2).val) :
    blockOut x0 x1 x2 y = Gf A i := by
  obtain ⟨u, n, l, rfl⟩ : ∃ (u : Fin 1) (n : Fin 1024) (l : Fin 128), y = ix3 u n l := ⟨y 0, y 1, y 2, eq_ix3 y⟩
  obtain rfl : u = 0 := Subsingleton.elim _ _
  have hlt : 128 * p + l.val < 768 := by have hl := l.isLt; omega
  have ei : i = ix3 (⟨b, hb⟩ : Fin 16) n (⟨128 * p + l.val, hlt⟩ : Fin 768) := funext fun a => Fin.ext (by
    match a with
    | ⟨0, _⟩ => exact hi0
    | ⟨1, _⟩ => exact hi1
    | ⟨2, _⟩ => exact hi2)
  rw [ei]
  exact blockOut_eq A x0 x1 x2 b p hb hp h0 h1 h2 n l

/-! ## The windows' blocks in their arrays -/

/-- The printed index maps, decided over the 96 grid points: the three input windows' blocks sit at the output
    block's batch entry, 0, 6 and 12 lane blocks further on; no window moves along the rows. -/
theorem idx_facts : ∀ t : Fin cfg1.N,
    win1_0.index t (0 : Fin 3) = win1_3.index t (0 : Fin 3) ∧ win1_0.index t (1 : Fin 3) = 0
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3) + 6
    ∧ win1_2.index t (0 : Fin 3) = win1_3.index t (0 : Fin 3) ∧ win1_2.index t (1 : Fin 3) = 0
    ∧ win1_2.index t (2 : Fin 3) = win1_3.index t (2 : Fin 3) + 12
    ∧ win1_3.index t (1 : Fin 3) = 0 ∧ win1_3.index t (0 : Fin 3) < 16 ∧ win1_3.index t (2 : Fin 3) < 6 :=
  (by decide +kernel : ∀ t : Fin grid1.N, _)

/-- Every (batch entry, lane block) of the result is some point's output block. -/
theorem idx_onto : ∀ (q0 : Fin 16) (q2 : Fin 6), ∃ t : Fin cfg1.N, win1_3.index t = ![q0.val, 0, q2.val] :=
  (by decide +kernel : ∀ (q0 : Fin 16) (q2 : Fin 6), ∃ t : Fin grid1.N, win1_3.index t = ![q0.val, 0, q2.val])

variable (V : (c : Dev nD) → (b : Ref sig .tc) → Buf (Elt Ideal) ((c : Thread nD τ).loc b))

/-- The query window's block at point t, read in the array of projected lanes. -/
theorem iblk0_apply (c : Dev nD) (t : Fin cfg1.N) (y : S1x1024x128.Idx) (k : S16x1024x2304.Idx)
    (hk0 : (k 0).val = win1_0.index t (0 : Fin 3) * 1 + (y 0).val)
    (hk1 : (k 1).val = win1_0.index t (1 : Fin 3) * 1024 + (y 1).val)
    (hk2 : (k 2).val = win1_0.index t (2 : Fin 3) * 128 + (y 2).val) :
    (iblk1 (F := Ideal) V c 0 t : Vec Ideal S1x1024x128 .bf16) y = (V c main_v4 : S16x1024x2304.Idx → EReal) k := by
  unfold iblk1
  rw [View.read_apply]
  show (V c main_v4 : S16x1024x2304.Idx → EReal) _ = (V c main_v4 : S16x1024x2304.Idx → EReal) _
  congr 1
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 128 + 1 * (y 2).val = (k 2).val; omega

/-- The key window's block at point t. -/
theorem iblk1_apply (c : Dev nD) (t : Fin cfg1.N) (y : S1x1024x128.Idx) (k : S16x1024x2304.Idx)
    (hk0 : (k 0).val = win1_1.index t (0 : Fin 3) * 1 + (y 0).val)
    (hk1 : (k 1).val = win1_1.index t (1 : Fin 3) * 1024 + (y 1).val)
    (hk2 : (k 2).val = win1_1.index t (2 : Fin 3) * 128 + (y 2).val) :
    (iblk1 (F := Ideal) V c 1 t : Vec Ideal S1x1024x128 .bf16) y = (V c main_v4 : S16x1024x2304.Idx → EReal) k := by
  unfold iblk1
  rw [View.read_apply]
  show (V c main_v4 : S16x1024x2304.Idx → EReal) _ = (V c main_v4 : S16x1024x2304.Idx → EReal) _
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 128 + 1 * (y 2).val = (k 2).val; omega

/-- The value window's block at point t. -/
theorem iblk2_apply (c : Dev nD) (t : Fin cfg1.N) (y : S1x1024x128.Idx) (k : S16x1024x2304.Idx)
    (hk0 : (k 0).val = win1_2.index t (0 : Fin 3) * 1 + (y 0).val)
    (hk1 : (k 1).val = win1_2.index t (1 : Fin 3) * 1024 + (y 1).val)
    (hk2 : (k 2).val = win1_2.index t (2 : Fin 3) * 128 + (y 2).val) :
    (iblk1 (F := Ideal) V c 2 t : Vec Ideal S1x1024x128 .bf16) y = (V c main_v4 : S16x1024x2304.Idx → EReal) k := by
  unfold iblk1
  rw [View.read_apply]
  show (V c main_v4 : S16x1024x2304.Idx → EReal) _ = (V c main_v4 : S16x1024x2304.Idx → EReal) _
  congr 1
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 128 + 1 * (y 2).val = (k 2).val; omega

/-! ## What a point writes back, the cover, and the array after the call -/

/-- What point t writes back is block t of the result as one function of the projected lanes. -/
theorem flushed_eq (c : Dev nD) (t : Fin cfg1.N) :
    (dat1 (F := Ideal) V c).flushed 3 t
      = ((cfg1.win 3).blk t).view.read (Elt Ideal) (Gf (V c main_v4 : S16x1024x2304.Idx → EReal)) := by
  show (cfg1.win 3).cut (grid1.coords t) ((dat1 (F := Ideal) V c).after 3 t) = _
  rw [after1_3]
  obtain ⟨a0, a1, a2, b0, b1, b2, c0, c1, c2, o1, o0, o2⟩ := idx_facts t
  funext y
  rw [View.read_apply]
  show out1_3 (F := Ideal) (iblk1 V c 0 t) (iblk1 V c 1 t) (iblk1 V c 2 t) y
    = Gf (V c main_v4 : S16x1024x2304.Idx → EReal) (((cfg1.win 3).blk t).view.emb y)
  refine (out1_3_apply (iblk1 V c 0 t) (iblk1 V c 1 t) (iblk1 V c 2 t) y).trans ?_
  have hy0 : (y 0).val < 1 := (y 0).isLt
  refine blockOut_eq_Gf (V c main_v4 : S16x1024x2304.Idx → EReal) (iblk1 V c 0 t) (iblk1 V c 1 t) (iblk1 V c 2 t)
    (win1_3.index t (0 : Fin 3)) (win1_3.index t (2 : Fin 3)) o0 o2 ?_ ?_ ?_ y (((cfg1.win 3).blk t).view.emb y) ?_ ?_ ?_
  · intro n l
    refine iblk0_apply V c t (ix3 (0 : Fin 1) n l) _ ?_ ?_ ?_
    · show win1_3.index t (0 : Fin 3) = win1_0.index t (0 : Fin 3) * 1 + 0; omega
    · show n.val = win1_0.index t (1 : Fin 3) * 1024 + n.val; omega
    · show 128 * win1_3.index t (2 : Fin 3) + l.val = win1_0.index t (2 : Fin 3) * 128 + l.val; omega
  · intro n l
    refine iblk1_apply V c t (ix3 (0 : Fin 1) n l) _ ?_ ?_ ?_
    · show win1_3.index t (0 : Fin 3) = win1_1.index t (0 : Fin 3) * 1 + 0; omega
    · show n.val = win1_1.index t (1 : Fin 3) * 1024 + n.val; omega
    · show 768 + 128 * win1_3.index t (2 : Fin 3) + l.val = win1_1.index t (2 : Fin 3) * 128 + l.val; omega
  · intro n l
    refine iblk2_apply V c t (ix3 (0 : Fin 1) n l) _ ?_ ?_ ?_
    · show win1_3.index t (0 : Fin 3) = win1_2.index t (0 : Fin 3) * 1 + 0; omega
    · show n.val = win1_2.index t (1 : Fin 3) * 1024 + n.val; omega
    · show 1536 + 128 * win1_3.index t (2 : Fin 3) + l.val = win1_2.index t (2 : Fin 3) * 128 + l.val; omega
  · show win1_3.index t (0 : Fin 3) * 1 + 1 * (y 0).val = win1_3.index t (0 : Fin 3); omega
  · show win1_3.index t (1 : Fin 3) * 1024 + 1 * (y 1).val = (y 1).val; omega
  · show win1_3.index t (2 : Fin 3) * 128 + 1 * (y 2).val = 128 * win1_3.index t (2 : Fin 3) + (y 2).val; omega

/-- An index of the result is in point t's block iff each coordinate is in the block's range on its axis. -/
theorem mem_blk (t : Fin cfg1.N) (i : S16x1024x768.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v5).slice (win1_3.rect t)).set ↔ _
  rw [View.set_slice_whole, Rect.mem_set_unit]
  exact Iff.rfl

/-- The 96 output blocks cover the result: index (b, n, j) is in the block of the point at (b, j / 128). -/
theorem cover (i : S16x1024x768.Idx) :
    ∃ t : Fin cfg1.N, (cfg1.win 3).flush t = true ∧ i ∈ ((cfg1.win 3).blk t).view.set := by
  have hi0 : (i 0).val < 16 := (i 0).isLt
  have hi1 : (i 1).val < 1024 := (i 1).isLt
  have hi2 : (i 2).val < 768 := (i 2).isLt
  obtain ⟨t, ht⟩ := idx_onto ⟨(i 0).val, hi0⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The result array after the call, as one function of the projected lanes. -/
theorem final (c : Dev nD) : (dat1 (F := Ideal) V c).arrAt 3 cfg1.N = Gf (V c main_v4 : S16x1024x2304.Idx → EReal) :=
  (dat1 (F := Ideal) V c).arrAt_eq_of_cover 3 (Gf (V c main_v4 : S16x1024x2304.Idx → EReal)) (fun t _ => flushed_eq V c t) cover

/-- Lane d of head h of token (b, n) of the result: the head's context over its query, key and value lanes. -/
theorem arr1 (c : Dev nD) (b : Fin 16) (n : Fin 1024) (h : Fin 12) (d : Fin 64) :
    (dat1 (F := Ideal) V c).arrAt 3 cfg1.N (ix3 b n ⟨h.val * 64 + d.val, by omega⟩)
      = Cert.Attn.head (fun n d => V c main_v4 (ix3 b n (Cert.Attn.lane 0 h d)))
          (fun m d => V c main_v4 (ix3 b m (Cert.Attn.lane 1 h d)))
          (fun m d => V c main_v4 (ix3 b m (Cert.Attn.lane 2 h d))) n d :=
  (congrFun (final V c) _).trans (feat_apply (V c main_v4 : S16x1024x2304.Idx → EReal) b n h d)

end Cert.KVal

end
-- ==== Proof.KI.Glue.lean ====
/-
  The host operations between the calls, read at an index.

  Before the first call the token array [16, 1024, 768] is regrouped as 16384 rows (row r is
  token (r / 1024, r % 1024)) and the projection weights [2304, 768] are transposed to [768, 2304]
  and narrowed (the narrowing is the identity on the extended reals).  Between the calls the
  16384 rows are regrouped back into [16, 1024, ·] (token (b, n) is row 1024 b + n) and forth
  again; before the last call the output weights are transposed and narrowed and the bias becomes a
  one-row matrix; after it the 16384 rows become [16, 1024, 768].  A regrouping keeps the row-major
  position; a transposition swaps the two coordinates.
-/
import proofs.«136603_j11132555231610_2_alg».proof.Proof.KI.Run
import Idealize.ShloMosaic.Lib.Pipeline.Value
import Idealize.ShloMosaic.Lib.ValueIdx
import Idealize.ShloMosaic.Lib.StableHlo.Run

noncomputable section

namespace Cert.KVal

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-! ## Each stretch's results as whole arrays -/

theorem v0_eq : (E1 m ρ c main_v0 : S16384x768.Idx → EReal)
    = shapeCast S16384x768 (m ((c : Thread nD τ).loc main_arg0) : S16x1024x768.Idx → EReal) shapeCasts_S16x1024x768_S16384x768 := by
  show StableHlo.after hostOps0 (W0 m ρ c) (Proc.devRef .tc main_v0) = _
  after_results
  rfl

theorem v2_eq : (E1 m ρ c main_v2 : S768x2304.Idx → EReal)
    = truncf (F := Ideal) .bf16 (transpose S768x2304 [1, 0] (m ((c : Thread nD τ).loc main_arg1) : S2304x768.Idx → EReal)
        transposes_S2304x768_S768x2304_1_0) bitsLt_bf16_f32 := by
  show StableHlo.after hostOps0 (W0 m ρ c) (Proc.devRef .tc main_v2) = _
  after_results

theorem v4_eq : (E3 m ρ c main_v4 : S16x1024x2304.Idx → EReal)
    = shapeCast S16x1024x2304 (E2 m ρ c main_v3 : S16384x2304.Idx → EReal) shapeCasts_S16384x2304_S16x1024x2304 := by
  show StableHlo.after hostOps1 (W2 m ρ c) (Proc.devRef .tc main_v4) = _
  after_results
  rfl

theorem v6_eq : (E5 m ρ c main_v6 : S16384x768.Idx → EReal)
    = shapeCast S16384x768 (E4 m ρ c main_v5 : S16x1024x768.Idx → EReal) shapeCasts_S16x1024x768_S16384x768 := by
  show StableHlo.after hostOps2 (W4 m ρ c) (Proc.devRef .tc main_v6) = _
  after_results
  rfl

/-- Neither the first two calls nor the host operations before the last call write argument 2. -/
theorem W4_main_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Neither the first two calls nor the host operations before the last call write argument 3. -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem v8_eq : (E5 m ρ c main_v8 : S768x768.Idx → EReal)
    = truncf (F := Ideal) .bf16 (transpose S768x768 [1, 0] (m ((c : Thread nD τ).loc main_arg2) : S768x768.Idx → EReal)
        transposes_S768x768_S768x768_1_0) bitsLt_bf16_f32 := by
  rw [← W4_main_arg2 m ρ c]
  show StableHlo.after hostOps2 (W4 m ρ c) (Proc.devRef .tc main_v8) = _
  after_results

theorem v9_eq : (E5 m ρ c main_v9 : S1x768.Idx → EReal)
    = shapeCast S1x768 (m ((c : Thread nD τ).loc main_arg3) : S768.Idx → EReal) shapeCasts_S768_S1x768 := by
  rw [← W4_main_arg3 m ρ c]
  show StableHlo.after hostOps2 (W4 m ρ c) (Proc.devRef .tc main_v9) = _
  after_results
  rfl

theorem v11_eq : (W7 m ρ c (Proc.devRef .tc main_v11) : S16x1024x768.Idx → EReal)
    = shapeCast S16x1024x768 (E6 m ρ c main_v10 : S16384x768.Idx → EReal) shapeCasts_S16384x768_S16x1024x768 := by
  show StableHlo.after hostOps3 (W6 m ρ c) (Proc.devRef .tc main_v11) = _
  after_results
  rfl

/-! ## Read at an index -/

/-- Row r of the regrouped token array is token (r / 1024, r % 1024). -/
theorem g_v0 (r : Fin 16384) (k : Fin 768) :
    (E1 m ρ c main_v0 : S16384x768.Idx → EReal) (ix2 r k)
      = (m ((c : Thread nD τ).loc main_arg0) : S16x1024x768.Idx → EReal)
          (ix3 (⟨r.val / 1024, by omega⟩ : Fin 16) (⟨r.val % 1024, by omega⟩ : Fin 1024) k) := by
  refine (congrFun (v0_eq m ρ c) (ix2 r k)).trans ?_
  refine shapeCast_apply _ _ (ix2 r k) (ix3 (⟨r.val / 1024, by omega⟩ : Fin 16) (⟨r.val % 1024, by omega⟩ : Fin 1024) k) ?_
  rewrite [Shape.rowMajor_val_three, Shape.rowMajor_val_two]
  show (r.val / 1024 * 1024 + r.val % 1024) * 768 + k.val = r.val * 768 + k.val
  omega

/-- Entry (k, o) of the transposed, narrowed projection weights is entry (o, k) of the weights. -/
theorem g_v2 (k : Fin 768) (o : Fin 2304) :
    (E1 m ρ c main_v2 : S768x2304.Idx → EReal) (ix2 k o)
      = (m ((c : Thread nD τ).loc main_arg1) : S2304x768.Idx → EReal) (ix2 o k) := by
  refine (congrFun (v2_eq m ρ c) (ix2 k o)).trans ?_
  rw [truncf_apply]
  exact transpose_apply [1, 0] _ transposes_S2304x768_S768x2304_1_0 (ix2 k o) (ix2 o k) (fun b => match b with
    | ⟨0, _⟩ => rfl
    | ⟨1, _⟩ => rfl)

/-- Token (b, n) of the regrouped first result is row 1024 b + n. -/
theorem g_v4 (b : Fin 16) (n : Fin 1024) (o : Fin 2304) :
    (E3 m ρ c main_v4 : S16x1024x2304.Idx → EReal) (ix3 b n o)
      = (E2 m ρ c main_v3 : S16384x2304.Idx → EReal) (ix2 (⟨b.val * 1024 + n.val, by omega⟩ : Fin 16384) o) := by
  refine (congrFun (v4_eq m ρ c) (ix3 b n o)).trans ?_
  refine shapeCast_apply _ _ (ix3 b n o) (ix2 (⟨b.val * 1024 + n.val, by omega⟩ : Fin 16384) o) ?_
  rewrite [Shape.rowMajor_val_three, Shape.rowMajor_val_two]
  rfl

/-- Row r of the regrouped context array is token (r / 1024, r % 1024). -/
theorem g_v6 (r : Fin 16384) (k : Fin 768) :
    (E5 m ρ c main_v6 : S16384x768.Idx → EReal) (ix2 r k)
      = (E4 m ρ c main_v5 : S16x1024x768.Idx → EReal)
          (ix3 (⟨r.val / 1024, by omega⟩ : Fin 16) (⟨r.val % 1024, by omega⟩ : Fin 1024) k) := by
  refine (congrFun (v6_eq m ρ c) (ix2 r k)).trans ?_
  refine shapeCast_apply _ _ (ix2 r k) (ix3 (⟨r.val / 1024, by omega⟩ : Fin 16) (⟨r.val % 1024, by omega⟩ : Fin 1024) k) ?_
  rewrite [Shape.rowMajor_val_three, Shape.rowMajor_val_two]
  show (r.val / 1024 * 1024 + r.val % 1024) * 768 + k.val = r.val * 768 + k.val
  omega

/-- Entry (k, j) of the transposed, narrowed output weights is entry (j, k) of the weights. -/
theorem g_v8 (k j : Fin 768) :
    (E5 m ρ c main_v8 : S768x768.Idx → EReal) (ix2 k j)
      = (m ((c : Thread nD τ).loc main_arg2) : S768x768.Idx → EReal) (ix2 j k) := by
  refine (congrFun (v8_eq m ρ c) (ix2 k j)).trans ?_
  rw [truncf_apply]
  exact transpose_apply [1, 0] _ transposes_S768x768_S768x768_1_0 (ix2 k j) (ix2 j k) (fun b => match b with
    | ⟨0, _⟩ => rfl
    | ⟨1, _⟩ => rfl)

/-- Entry (0, j) of the bias as a one-row matrix is bias entry j. -/
theorem g_v9 (j : Fin 768) :
    (E5 m ρ c main_v9 : S1x768.Idx → EReal) (ix2 (0 : Fin 1) j)
      = (m ((c : Thread nD τ).loc main_arg3) : S768.Idx → EReal) (ix1 j) := by
  refine (congrFun (v9_eq m ρ c) (ix2 (0 : Fin 1) j)).trans ?_
  refine shapeCast_apply _ _ (ix2 (0 : Fin 1) j) (ix1 j) ?_
  rewrite [Shape.rowMajor_val_one, Shape.rowMajor_val_two]
  show j.val = 0 * 768 + j.val
  omega

/-- Token (b, n) of the returned array is row 1024 b + n of the last call's result. -/
theorem g_v11 (b : Fin 16) (n : Fin 1024) (j : Fin 768) :
    (W7 m ρ c (Proc.devRef .tc main_v11) : S16x1024x768.Idx → EReal) (ix3 b n j)
      = (E6 m ρ c main_v10 : S16384x768.Idx → EReal) (ix2 (⟨b.val * 1024 + n.val, by omega⟩ : Fin 16384) j) := by
  refine (congrFun (v11_eq m ρ c) (ix3 b n j)).trans ?_
  refine shapeCast_apply _ _ (ix3 b n j) (ix2 (⟨b.val * 1024 + n.val, by omega⟩ : Fin 16384) j) ?_
  rewrite [Shape.rowMajor_val_three, Shape.rowMajor_val_two]
  rfl

end Cert.KVal

end
-- ==== Proof.KI.Value.lean ====
/-
  The idealized kernel's result, read through the whole program: the host operations re-lay the
  arrays (token row r of a [16384, ·] array is token (r / 1024, r % 1024); a weight matrix is read
  transposed; the bias is a one-row matrix), the first call leaves the projected lanes, the second the
  context features head by head, the third the output features.  Composed, the result array is the
  specification's function of the four argument arrays.
-/
import proofs.«136603_j11132555231610_2_alg».proof.Proof.KI.Run
import proofs.«136603_j11132555231610_2_alg».proof.Proof.KI.Val0
import proofs.«136603_j11132555231610_2_alg».proof.Proof.KI.Val2
import proofs.«136603_j11132555231610_2_alg».proof.Proof.KI.Val1
import proofs.«136603_j11132555231610_2_alg».proof.Proof.KI.Glue
import proofs.«136603_j11132555231610_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KVal

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-! ## The four argument arrays of core c, as functions of literal index types -/

abbrev aX (c : Dev nD) : S16x1024x768.Idx → EReal := m ((c.tc : Thread nD τ).loc main_arg0)
abbrev aW (c : Dev nD) : S2304x768.Idx → EReal := m ((c.tc : Thread nD τ).loc main_arg1)
abbrev aP (c : Dev nD) : S768x768.Idx → EReal := m ((c.tc : Thread nD τ).loc main_arg2)
abbrev aB (c : Dev nD) : S768.Idx → EReal := m ((c.tc : Thread nD τ).loc main_arg3)

/-- The first call leaves the projected lanes: row r of the [16384, 2304] array is token (r / 1024, r % 1024). -/
theorem v3_at (r : Fin 16384) (o : Fin 2304) :
    (E2 m ρ c main_v3 : S16384x2304.Idx → EReal) (ix2 r o)
      = Cert.Attn.qkv (aX m c) (aW m c) ⟨r.val / 1024, by omega⟩ ⟨r.val % 1024, by omega⟩ o := by
  have e : (E2 m ρ c main_v3 : S16384x2304.Idx → EReal) = G0 (E1 m ρ c main_v0) (E1 m ρ c main_v2) :=
    (W2_arr m ρ c 2).trans (final0 (E1 m ρ) c)
  rw [e]
  refine (G0_apply _ _ r o).trans ?_
  unfold Cert.Attn.qkv
  exact Finset.sum_congr rfl fun k _ => by rw [g_v0, g_v2]

/-- The same lanes seen as [16, 1024, 2304]. -/
theorem v4_at (b : Fin 16) (n : Fin 1024) (o : Fin 2304) :
    (E3 m ρ c main_v4 : S16x1024x2304.Idx → EReal) (ix3 b n o) = Cert.Attn.qkv (aX m c) (aW m c) b n o := by
  rw [g_v4, v3_at]
  congr 1 <;> exact Fin.ext (by dsimp only; omega)

/-- The attention call leaves, at feature h * 64 + d of token (b, n), the context lane d of head h. -/
theorem v5_at (b : Fin 16) (n : Fin 1024) (h : Fin 12) (d : Fin 64) :
    (E4 m ρ c main_v5 : S16x1024x768.Idx → EReal) (ix3 b n ⟨h.val * 64 + d.val, by omega⟩)
      = Cert.Attn.ctx (aX m c) (aW m c) b h n d := by
  have e : (E4 m ρ c main_v5 : S16x1024x768.Idx → EReal) = (dat1 (E3 m ρ) c).arrAt 3 cfg1.N := W4_out m ρ c
  rw [e, arr1 (E3 m ρ) c b n h d]
  unfold Cert.Attn.ctx
  congr 1 <;> (funext n' d'; exact v4_at m ρ c _ _ _)

/-- So every feature c of token (b, n) is the context feature of the specification. -/
theorem v5_feat (b : Fin 16) (n : Fin 1024) (j : Fin 768) :
    (E4 m ρ c main_v5 : S16x1024x768.Idx → EReal) (ix3 b n j) = Cert.Attn.ctxFeat (aX m c) (aW m c) b n j := by
  have h := v5_at m ρ c b n ⟨j.val / 64, by omega⟩ ⟨j.val % 64, by omega⟩
  have hj : (⟨j.val / 64 * 64 + j.val % 64, by omega⟩ : Fin 768) = j := Fin.ext (by dsimp only; omega)
  dsimp only at h
  rw [hj] at h
  exact h

/-- The last call leaves the output features: row r of the [16384, 768] array is token (r / 1024, r % 1024). -/
theorem v10_at (r : Fin 16384) (j : Fin 768) :
    (E6 m ρ c main_v10 : S16384x768.Idx → EReal) (ix2 r j)
      = Cert.Attn.out (aX m c) (aW m c) (aP m c) (aB m c) ⟨r.val / 1024, by omega⟩ ⟨r.val % 1024, by omega⟩ j := by
  have e : (E6 m ρ c main_v10 : S16384x768.Idx → EReal) = G2 (E5 m ρ c main_v6) (E5 m ρ c main_v8) (E5 m ρ c main_v9) :=
    (W6_arr m ρ c 3).trans (final2 (E5 m ρ) c)
  rw [e]
  refine (G2_apply _ _ _ r j).trans ?_
  rw [g_v9]
  unfold Cert.Attn.out
  congr 1
  exact Finset.sum_congr rfl fun k _ => by rw [g_v6, g_v8, v5_feat]

/-- The result array is the specification's. -/
theorem result_eq : (W7 m ρ c (Proc.devRef .tc main_v11) : S16x1024x768.Idx → EReal)
    = Cert.Attn.G (aX m c) (aW m c) (aP m c) (aB m c) := by
  funext i
  obtain ⟨b, n, j, rfl⟩ : ∃ (b : Fin 16) (n : Fin 1024) (j : Fin 768), i = ix3 b n j := ⟨i 0, i 1, i 2, eq_ix3 i⟩
  rw [g_v11, v10_at, Cert.Attn.G_apply]
  congr 1 <;> exact Fin.ext (by dsimp only; omega)

/-- THE IDEALIZED KERNEL'S RUN: every weakly fair execution terminates, nothing faulting, with the result
    array at the specification's function of the argument arrays and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Attn.G (aX m c) (aW m c) (aP m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucR main_v11 (by decide))).trans (result_eq m ρ c),
     (h c _ (mem_ucR main_arg0 (by decide))).trans (W7_main_arg0 m ρ c),
     (h c _ (mem_ucR main_arg1 (by decide))).trans (W7_main_arg1 m ρ c),
     (h c _ (mem_ucR main_arg2 (by decide))).trans (W7_main_arg2 m ρ c),
     (h c _ (mem_ucR main_arg3 (by decide))).trans (W7_main_arg3 m ρ c)⟩) (run_all m ρ)

end Cert.KVal

end
-- ==== Proof.RefSpecA.lean ====
/-
  The reference's projection, read at coordinates.

  The reference multiplies every token row by the 2304 weight rows, regroups the 2304 lanes of a
  token as 3 parts x 12 heads x 64 lanes, moves the part and head axes in front of the row axis
  and cuts out the three parts.  Read at (b, h, n, d) each part is the projected lane
  part * 768 + h * 64 + d of token (b, n): the regrouping and the cuts only rename coordinates.
-/
import proofs.«136603_j11132555231610_2_alg».proof.Proof.Spec
import proofs.«136603_j11132555231610_2_alg».proof.Proof.Gen.ReferenceIdeal.Read

noncomputable section

namespace Cert.RefSpec

open Cert.ReferenceIdeal Cert.ReferenceIdeal.Gen Cert.ReferenceIdeal.Read Idealize.ShloMosaic Idealize.ShloMosaic.ValueIdx

/-! ## The coordinate renamings -/

theorem idx_v4 (b : Fin 16) (h : Fin 12) (n : Fin 1024) (d : Fin 64) :
    idx_main_v4 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 16 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v6 (b : Fin 16) (h : Fin 12) (n : Fin 1024) (d : Fin 64) :
    idx_main_v6 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 16 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v8 (b : Fin 16) (h : Fin 12) (n : Fin 1024) (d : Fin 64) :
    idx_main_v8 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 16 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v3 (b : Fin 16) (h : Fin 12) (n : Fin 1024) (d : Fin 64) :
    idx_main_v3 (ix5 (0 : Fin 1) b h n d) = ix5 (0 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v5 (b : Fin 16) (h : Fin 12) (n : Fin 1024) (d : Fin 64) :
    idx_main_v5 (ix5 (0 : Fin 1) b h n d) = ix5 (1 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v7 (b : Fin 16) (h : Fin 12) (n : Fin 1024) (d : Fin 64) :
    idx_main_v7 (ix5 (0 : Fin 1) b h n d) = ix5 (2 : Fin 3) b h n d := by
  funext a; apply Fin.ext
  match a with
  | ⟨0, _⟩ => rfl
  | ⟨1, _⟩ => rfl
  | ⟨2, _⟩ => rfl
  | ⟨3, _⟩ => rfl
  | ⟨4, _⟩ => rfl

/-- Moving the part and head axes in front: (s, b, h, n, d) is read at (b, n, s, h, d). -/
theorem idx_v2 (s : Fin 3) (b : Fin 16) (h : Fin 12) (n : Fin 1024) (d : Fin 64) :
    idx_main_v2 (ix5 s b h n d) = ix5 b n s h d := by
  funext a; apply Fin.ext
  match a with
  | ⟨0, _⟩ => rfl
  | ⟨1, _⟩ => rfl
  | ⟨2, _⟩ => rfl
  | ⟨3, _⟩ => rfl
  | ⟨4, _⟩ => rfl

/-- Regrouping 2304 lanes as 3 x 12 x 64: (b, n, s, h, d) is lane s * 768 + h * 64 + d of token (b, n). -/
theorem idx_v1 (b : Fin 16) (n : Fin 1024) (s : Fin 3) (h : Fin 12) (d : Fin 64) :
    idx_main_v1 (ix5 b n s h d) = ix3 b n (Cert.Attn.lane s h d) := by
  funext a; apply Fin.ext
  have hb := b.isLt; have hn := n.isLt; have hs := s.isLt; have hh := h.isLt; have hd := d.isLt
  match a with
  | ⟨0, _⟩ => show ((((b.val * 1024 + n.val) * 3 + s.val) * 12 + h.val) * 64 + d.val) / 2359296 = b.val; omega
  | ⟨1, _⟩ => show ((((b.val * 1024 + n.val) * 3 + s.val) * 12 + h.val) * 64 + d.val) / 2304 % 1024 = n.val; omega
  | ⟨2, _⟩ => show ((((b.val * 1024 + n.val) * 3 + s.val) * 12 + h.val) * 64 + d.val) % 2304 = s.val * 768 + h.val * 64 + d.val; omega

theorem lidx_v0 (b : Fin 16) (n : Fin 1024) (o : Fin 2304) (k : Fin 768) :
    lidx_main_v0 (ix3 b n o) k = ix3 b n k := by
  funext a; apply Fin.ext
  match a with
  | ⟨0, _⟩ => rfl
  | ⟨1, _⟩ => rfl
  | ⟨2, _⟩ => rfl

theorem ridx_v0 (b : Fin 16) (n : Fin 1024) (o : Fin 2304) (k : Fin 768) :
    ridx_main_v0 (ix3 b n o) k = ix2 o k := by
  funext a; apply Fin.ext
  match a with
  | ⟨0, _⟩ => rfl
  | ⟨1, _⟩ => rfl

/-! ## The projected lanes -/

/-- Lane o of token (b, n): the dot product of the token row with weight row o. -/
theorem v0_at (x : FVec Ideal S16x1024x768 .f32) (w : FVec Ideal S2304x768 .f32)
    (b : Fin 16) (n : Fin 1024) (o : Fin 2304) :
    val_main_v0 (F := Ideal) x w (ix3 b n o) = Cert.Attn.qkv x w b n o := by
  rw [val_main_v0_apply]
  unfold Cert.Attn.qkv
  refine Finset.sum_congr rfl fun k _ => ?_
  rw [lidx_v0, ridx_v0]

/-- The query of head h in batch entry b, row n, lane d: the projected lane of part 0. -/
theorem v4_at (x : FVec Ideal S16x1024x768 .f32) (w : FVec Ideal S2304x768 .f32)
    (b : Fin 16) (h : Fin 12) (n : Fin 1024) (d : Fin 64) :
    val_main_v4 (F := Ideal) x w (ix4 b h n d) = Cert.Attn.qkv x w b n (Cert.Attn.lane 0 h d) := by
  rw [val_main_v4_apply, idx_v4, val_main_v3_apply, idx_v3, val_main_v2_apply, idx_v2,
    val_main_v1_apply, idx_v1, v0_at]

/-- The key of head h in batch entry b, row n, lane d: the projected lane of part 1. -/
theorem v6_at (x : FVec Ideal S16x1024x768 .f32) (w : FVec Ideal S2304x768 .f32)
    (b : Fin 16) (h : Fin 12) (n : Fin 1024) (d : Fin 64) :
    val_main_v6 (F := Ideal) x w (ix4 b h n d) = Cert.Attn.qkv x w b n (Cert.Attn.lane 1 h d) := by
  rw [val_main_v6_apply, idx_v6, val_main_v5_apply, idx_v5, val_main_v2_apply, idx_v2,
    val_main_v1_apply, idx_v1, v0_at]

/-- The value of head h in batch entry b, row n, lane d: the projected lane of part 2. -/
theorem v8_at (x : FVec Ideal S16x1024x768 .f32) (w : FVec Ideal S2304x768 .f32)
    (b : Fin 16) (h : Fin 12) (n : Fin 1024) (d : Fin 64) :
    val_main_v8 (F := Ideal) x w (ix4 b h n d) = Cert.Attn.qkv x w b n (Cert.Attn.lane 2 h d) := by
  rw [val_main_v8_apply, idx_v8, val_main_v7_apply, idx_v7, val_main_v2_apply, idx_v2,
    val_main_v1_apply, idx_v1, v0_at]

end Cert.RefSpec

end
-- ==== Proof.RefSpecB.lean ====
/-
  The reference's softmax, read at coordinates.

  For head h of batch entry b write Q, K, V for its 1024 rows of 64 query, key and value lanes.
  The reference forms the scaled dot products of the query rows with the key rows, the maximum of
  each row of scores (a fold from -∞, then once more the larger of -∞ and that fold: the same
  number), the exponentials of the scores less their row's maximum, the rows' sums (from 0) and
  the quotients.  Each stage read at its coordinates is the corresponding function of Q and K.
-/
import proofs.«136603_j11132555231610_2_alg».proof.Proof.RefSpecA

noncomputable section

namespace Cert.RefSpec

open Cert.ReferenceIdeal Cert.ReferenceIdeal.Gen Cert.ReferenceIdeal.Read Idealize.ShloMosaic Idealize.ShloMosaic.ValueIdx

/-- The query rows of head h of batch entry b. -/
def Q (x : FVec Ideal S16x1024x768 .f32) (w : FVec Ideal S2304x768 .f32) (b : Fin 16) (h : Fin 12) : Fin 1024 → Fin 64 → EReal :=
  fun n d => Cert.Attn.qkv x w b n (Cert.Attn.lane 0 h d)
/-- The key rows of head h of batch entry b. -/
def K (x : FVec Ideal S16x1024x768 .f32) (w : FVec Ideal S2304x768 .f32) (b : Fin 16) (h : Fin 12) : Fin 1024 → Fin 64 → EReal :=
  fun n d => Cert.Attn.qkv x w b n (Cert.Attn.lane 1 h d)
/-- The value rows of head h of batch entry b. -/
def V (x : FVec Ideal S16x1024x768 .f32) (w : FVec Ideal S2304x768 .f32) (b : Fin 16) (h : Fin 12) : Fin 1024 → Fin 64 → EReal :=
  fun n d => Cert.Attn.qkv x w b n (Cert.Attn.lane 2 h d)

/-! ## The scores -/

theorem lidx_v9 (b : Fin 16) (h : Fin 12) (n m : Fin 1024) (k : Fin 64) :
    lidx_main_v9 (ix4 b h n m) k = ix4 b h n k := by
  funext a; apply Fin.ext
  match a with
  | ⟨0, _⟩ => rfl
  | ⟨1, _⟩ => rfl
  | ⟨2, _⟩ => rfl
  | ⟨3, _⟩ => rfl

theorem ridx_v9 (b : Fin 16) (h : Fin 12) (n m : Fin 1024) (k : Fin 64) :
    ridx_main_v9 (ix4 b h n m) k = ix4 b h m k := by
  funext a; apply Fin.ext
  match a with
  | ⟨0, _⟩ => rfl
  | ⟨1, _⟩ => rfl
  | ⟨2, _⟩ => rfl
  | ⟨3, _⟩ => rfl

/-- The scaled dot product of query row n with key row m. -/
theorem v11_at (x : FVec Ideal S16x1024x768 .f32) (w : FVec Ideal S2304x768 .f32) (b : Fin 16) (h : Fin 12) (n m : Fin 1024) :
    val_main_v11 (F := Ideal) x w (ix4 b h n m) = Cert.Attn.score (Q x w b h) (K x w b h) n m := by
  rw [val_main_v11_apply, val_main_v9_apply, val_main_v10_apply, val_main_cst_apply]
  simp only [Ideal.mulf_def, Ideal.ofBits_def]
  unfold Cert.Attn.score Cert.Attn.scale
  refine congrArg (· * _) (Finset.sum_congr rfl fun k _ => ?_)
  rw [lidx_v9, ridx_v9, v4_at, v6_at]
  rfl

/-! ## The row maximum -/

/-- The word of -∞ is the least extended real. -/
theorem ofBits_negInf : Ideal.ofBits .f32 0xFF800000#32 = (⊥ : EReal) := by simp [Ideal.ofBits, Ideal.ieee]

/-- Row (b, h, n) of the scores with column k put back is the entry (b, h, n, k). -/
theorem lift_v12 (hR : S16x12x1024x1024.Reduces [3] S16x12x1024) (b : Fin 16) (h : Fin 12) (n : Fin 1024)
    (k : Fin (S16x12x1024x1024.size 3)) :
    hR.lift (ix3 b h n) k = ix4 b h n (⟨k.val, k.isLt⟩ : Fin 1024) := by
  funext c; apply Fin.ext
  fin_cases c <;> rfl

/-- Dropping the last axis of a [16, 12, 1024, 1024] array leaves a [16, 12, 1024] one. -/
theorem reduces_v12 : S16x12x1024x1024.Reduces [3] S16x12x1024 := by decide

/-- A fold of the maximum along the last axis, read at row (b, h, n): the fold over that row's 1024 entries. -/
theorem rowFold (y : FVec Ideal S16x12x1024x1024 .f32) (init : FVec Ideal S_ .f32) (b : Fin 16) (h : Fin 12) (n : Fin 1024) :
    Host.reduce FloatOps.maximumf y init reducesTo_S16x12x1024x1024_S16x12x1024_d3 h_S_ (ix3 b h n)
      = (Finset.univ : Finset (Fin 1024)).fold max (init (Shape.Idx.first h_S_)) (fun m => y (ix4 b h n m)) := by
  rw [Host.reduce_eq_fold_single FloatOps.maximumf y init reducesTo_S16x12x1024x1024_S16x12x1024_d3 reduces_v12 h_S_]
  have hf : (y ∘ reduces_v12.lift (ix3 b h n)) = fun m : Fin 1024 => y (ix4 b h n m) :=
    funext fun k => congrArg y (lift_v12 reduces_v12 b h n k)
  rw [hf]
  rfl

/-- The fold of the maximum over row n of the scores, from -∞. -/
theorem v12_at (x : FVec Ideal S16x1024x768 .f32) (w : FVec Ideal S2304x768 .f32) (b : Fin 16) (h : Fin 12) (n : Fin 1024) :
    val_main_v12 (F := Ideal) x w (ix3 b h n) = Cert.Attn.rowMax (Q x w b h) (K x w b h) n := by
  unfold val_main_v12
  refine (rowFold (val_main_v11 (F := Ideal) x w) (val_main_cst_0 (F := Ideal)) b h n).trans ?_
  have hf : (fun m : Fin 1024 => val_main_v11 (F := Ideal) x w (ix4 b h n m))
      = fun m : Fin 1024 => Cert.Attn.score (Q x w b h) (K x w b h) n m := funext fun m => v11_at x w b h n m
  rw [hf]
  rfl

/-- The larger of -∞ and the row's fold is the row's fold. -/
theorem v14_at (x : FVec Ideal S16x1024x768 .f32) (w : FVec Ideal S2304x768 .f32) (b : Fin 16) (h : Fin 12) (n : Fin 1024) :
    val_main_v14 (F := Ideal) x w (ix3 b h n) = Cert.Attn.rowMax (Q x w b h) (K x w b h) n := by
  rw [val_main_v14_apply, val_main_v13_apply, val_main_cst_1_apply, v12_at]
  simp only [Ideal.maximumf_def, Ideal.ofBits_def]
  rw [ofBits_negInf]
  exact max_eq_right bot_le

/-! ## The exponentials, their row sums, the weights -/

theorem idx_v15_v16 (b : Fin 16) (h : Fin 12) (n m : Fin 1024) :
    idx_main_v15 (idx_main_v16 (ix4 b h n m)) = ix3 b h n := by
  funext a; apply Fin.ext
  match a with
  | ⟨0, _⟩ => rfl
  | ⟨1, _⟩ => rfl
  | ⟨2, _⟩ => rfl

/-- The exponential of a score less its row's maximum. -/
theorem v18_at (x : FVec Ideal S16x1024x768 .f32) (w : FVec Ideal S2304x768 .f32) (b : Fin 16) (h : Fin 12) (n m : Fin 1024) :
    val_main_v18 (F := Ideal) x w (ix4 b h n m) = Cert.Attn.expo (Q x w b h) (K x w b h) n m := by
  rw [val_main_v18_apply, val_main_v17_apply, val_main_v16_apply, val_main_v15_apply, idx_v15_v16, v14_at, v11_at]
  simp only [Ideal.hostUnary_exp_def, Ideal.subf_def]
  rfl

theorem idx_v19 (b : Fin 16) (h : Fin 12) (n : Fin 1024) (k : Fin 1024) :
    idx_main_v19 (ix3 b h n) k = ix4 b h n k := by
  funext a; apply Fin.ext
  match a with
  | ⟨0, _⟩ => rfl
  | ⟨1, _⟩ => rfl
  | ⟨2, _⟩ => rfl
  | ⟨3, _⟩ => rfl

/-- The sum of row n of the exponentials (from 0). -/
theorem v19_at (x : FVec Ideal S16x1024x768 .f32) (w : FVec Ideal S2304x768 .f32) (b : Fin 16) (h : Fin 12) (n : Fin 1024) :
    val_main_v19 (F := Ideal) x w (ix3 b h n) = Cert.Attn.denom (Q x w b h) (K x w b h) n := by
  rw [val_main_v19_apply, val_main_cst_2_apply]
  simp only [Ideal.ofBits_def, Ideal.ofBits_zero_f32, zero_add]
  unfold Cert.Attn.denom
  refine Finset.sum_congr rfl fun k _ => ?_
  rw [idx_v19, v18_at]

theorem idx_v20_v21 (b : Fin 16) (h : Fin 12) (n m : Fin 1024) :
    idx_main_v20 (idx_main_v21 (ix4 b h n m)) = ix3 b h n := by
  funext a; apply Fin.ext
  match a with
  | ⟨0, _⟩ => rfl
  | ⟨1, _⟩ => rfl
  | ⟨2, _⟩ => rfl

/-- The exponential divided by its row's sum. -/
theorem v22_at (x : FVec Ideal S16x1024x768 .f32) (w : FVec Ideal S2304x768 .f32) (b : Fin 16) (h : Fin 12) (n m : Fin 1024) :
    val_main_v22 (F := Ideal) x w (ix4 b h n m) = Cert.Attn.weight (Q x w b h) (K x w b h) n m := by
  rw [val_main_v22_apply, val_main_v21_apply, val_main_v20_apply, idx_v20_v21, v19_at, v18_at]
  simp only [Ideal.hostDivf_def]
  rfl

end Cert.RefSpec

end
-- ==== Proof.RefSpec.lean ====
/-
  The reference computes the layer's function.

  The context row of head h is the weighted sum of its value rows; the reference lays the 12
  context rows of a token side by side (feature c is lane c % 64 of head c / 64), multiplies by
  the 768 output weight rows and adds the bias.  Read at (b, n, j) that is the specification's
  output feature, so the reference's result array is the specification's, and every run of the
  reference ends with it.
-/
import proofs.«136603_j11132555231610_2_alg».proof.Proof.RefSpecB

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem

/-! ## The context rows -/

theorem lidx_v23 (b : Fin 16) (h : Fin 12) (n : Fin 1024) (d : Fin 64) (k : Fin 1024) :
    lidx_main_v23 (ix4 b h n d) k = ix4 b h n k := by
  funext a; apply Fin.ext
  match a with
  | ⟨0, _⟩ => rfl
  | ⟨1, _⟩ => rfl
  | ⟨2, _⟩ => rfl
  | ⟨3, _⟩ => rfl

theorem ridx_v23 (b : Fin 16) (h : Fin 12) (n : Fin 1024) (d : Fin 64) (k : Fin 1024) :
    ridx_main_v23 (ix4 b h n d) k = ix4 b h k d := by
  funext a; apply Fin.ext
  match a with
  | ⟨0, _⟩ => rfl
  | ⟨1, _⟩ => rfl
  | ⟨2, _⟩ => rfl
  | ⟨3, _⟩ => rfl

/-- Lane d of the context row n of head h: the weighted sum of the value rows. -/
theorem v23_at (x : FVec Ideal S16x1024x768 .f32) (w : FVec Ideal S2304x768 .f32) (b : Fin 16) (h : Fin 12) (n : Fin 1024) (d : Fin 64) :
    val_main_v23 (F := Ideal) x w (ix4 b h n d) = Cert.Attn.ctx x w b h n d := by
  rw [val_main_v23_apply]
  show _ = Cert.Attn.head (Q x w b h) (K x w b h) (V x w b h) n d
  unfold Cert.Attn.head
  refine Finset.sum_congr rfl fun k _ => ?_
  rw [lidx_v23, ridx_v23, v22_at, v8_at]
  rfl

/-- Laying the 12 heads' 64 lanes side by side: feature c of token (b, n) is lane c % 64 of head c / 64. -/
theorem idx_v24_v25 (b : Fin 16) (n : Fin 1024) (c : Fin 768) :
    idx_main_v24 (idx_main_v25 (ix3 b n c))
      = ix4 b (⟨c.val / 64, by have := c.isLt; omega⟩ : Fin 12) n (⟨c.val % 64, by omega⟩ : Fin 64) := by
  funext a; apply Fin.ext
  have hb := b.isLt; have hn := n.isLt; have hc := c.isLt
  match a with
  | ⟨0, _⟩ => show ((b.val * 1024 + n.val) * 768 + c.val) / 786432 = b.val; omega
  | ⟨1, _⟩ => show ((b.val * 1024 + n.val) * 768 + c.val) / 64 % 12 = c.val / 64; omega
  | ⟨2, _⟩ => show ((b.val * 1024 + n.val) * 768 + c.val) / 768 % 1024 = n.val; omega
  | ⟨3, _⟩ => show ((b.val * 1024 + n.val) * 768 + c.val) % 64 = c.val % 64; omega

/-- Context feature c of token (b, n). -/
theorem v25_at (x : FVec Ideal S16x1024x768 .f32) (w : FVec Ideal S2304x768 .f32) (b : Fin 16) (n : Fin 1024) (c : Fin 768) :
    val_main_v25 (F := Ideal) x w (ix3 b n c) = Cert.Attn.ctxFeat x w b n c := by
  rw [val_main_v25_apply, val_main_v24_apply, idx_v24_v25, v23_at]
  rfl

/-! ## The output projection -/

theorem lidx_v26 (b : Fin 16) (n : Fin 1024) (j : Fin 768) (k : Fin 768) :
    lidx_main_v26 (ix3 b n j) k = ix3 b n k := by
  funext a; apply Fin.ext
  match a with
  | ⟨0, _⟩ => rfl
  | ⟨1, _⟩ => rfl
  | ⟨2, _⟩ => rfl

theorem ridx_v26 (b : Fin 16) (n : Fin 1024) (j : Fin 768) (k : Fin 768) :
    ridx_main_v26 (ix3 b n j) k = ix2 j k := by
  funext a; apply Fin.ext
  match a with
  | ⟨0, _⟩ => rfl
  | ⟨1, _⟩ => rfl

theorem idx_v27_v28 (b : Fin 16) (n : Fin 1024) (j : Fin 768) :
    idx_main_v27 (idx_main_v28 (ix3 b n j)) = ix1 j := by
  funext a; apply Fin.ext
  match a with
  | ⟨0, _⟩ => rfl

/-- Output feature j of token (b, n): the context features against output weight row j, plus the bias. -/
theorem v29_at (x : FVec Ideal S16x1024x768 .f32) (w : FVec Ideal S2304x768 .f32) (wp : FVec Ideal S768x768 .f32) (bias : FVec Ideal S768 .f32)
    (b : Fin 16) (n : Fin 1024) (j : Fin 768) :
    val_main_v29 (F := Ideal) x w wp bias (ix3 b n j) = Cert.Attn.out x w wp bias b n j := by
  rw [val_main_v29_apply, val_main_v26_apply, val_main_v28_apply, val_main_v27_apply, idx_v27_v28]
  simp only [Ideal.addf_def]
  unfold Cert.Attn.out
  refine congrArg (· + _) (Finset.sum_congr rfl fun k _ => ?_)
  rw [lidx_v26, ridx_v26, v25_at]

/-! ## The result array and the run -/

/-- The reference's result, as a function of its four argument arrays, is the specification's. -/
theorem result_eq (x : FVec Ideal Cert.ReferenceIdeal.S16x1024x768 .f32) (w : FVec Ideal Cert.ReferenceIdeal.S2304x768 .f32)
    (wp : FVec Ideal Cert.ReferenceIdeal.S768x768 .f32) (bias : FVec Ideal Cert.ReferenceIdeal.S768 .f32) :
    Cert.ReferenceIdeal.Read.val_main_v29 (F := Ideal) x w wp bias = Cert.Attn.G x w wp bias := by
  funext i
  obtain ⟨b, n, j, rfl⟩ : ∃ (b : Fin 16) (n : Fin 1024) (j : Fin 768), i = ix3 b n j := ⟨i 0, i 1, i 2, eq_ix3 i⟩
  rw [v29_at, Cert.Attn.G_apply]

/-- Every weakly fair execution of the reference terminates with its result array at the specification's function
    of the argument arrays, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v29)
          = Cert.Attn.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨(h c).1.trans ((Cert.ReferenceIdeal.Read.val_main_v29_eq m c).trans (result_eq _ _ _ _)), (h c).2⟩)
    (Cert.ReferenceIdeal.Value.run (F := Ideal) m ρ)

end Cert.RefSpec

end
-- ==== Proof.lean ====
/-
  A 12-head self-attention layer — the QKV projection, the softmax attention of each head over the 1024
  positions of its batch entry, the output projection with its bias — computed by three pallas_calls
  among host re-layings, against the plain jnp expression of the same layer.

  Over the extended reals both programs compute ONE function of the four argument arrays
  (Proof/Spec.lean): the sums, the row maximum, the exponential, the quotient and the products appear
  in both in the same order, a change of float format is the identity, and a matrix product into a zero
  accumulator is the host's contraction; no finiteness of the inputs is used.
  The kernel's side: each call's body as a pure function of its blocks (Proof/Pay*.lean), each call's
  result array from its blocks (Proof/KI/Val*.lean), the host operations between the calls read at an
  index (Proof/KI/Glue.lean), composed in Proof/KI/Value.lean over the program's run (Proof/KI/Run.lean).
  The reference's side: its run read one operation at a time (Proof/RefSpec*.lean).
  The three frames are the runs with the results dropped; nothing was rewritten by the idealization.
-/
import proofs.«136603_j11132555231610_2_alg».proof.Defs
import proofs.«136603_j11132555231610_2_alg».proof.Proof.Gen.Kernel
import proofs.«136603_j11132555231610_2_alg».proof.Proof.Gen.KernelIdeal
import proofs.«136603_j11132555231610_2_alg».proof.Proof.Gen.ReferenceIdeal
import proofs.«136603_j11132555231610_2_alg».proof.Proof.Gen.Pre_finite_inputs
import proofs.«136603_j11132555231610_2_alg».proof.Proof.Gen.ReferenceIdeal.Run
import proofs.«136603_j11132555231610_2_alg».proof.Proof.KB.Run
import proofs.«136603_j11132555231610_2_alg».proof.Proof.KI.Value
import proofs.«136603_j11132555231610_2_alg».proof.Proof.RefSpec
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Gen.frame_all (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame_all (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the specification's
    function of those arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KVal.run m ρ, ?_⟩
  refine (θ_run Cert.ReferenceIdeal.defs _ _).mono (fun _ h c => ⟨(h c).1.trans ?_, (h c).2⟩) (Cert.RefSpec.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
